-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x600000 : S_.BroadcastsInDim S2x600000 (![] : Fin 0 → Fin S2x600000.rank)
  reducesTo_S2x600000_S_d0_1 : S2x600000.ReducesTo [0, 1] S_

variable [Facts]

def fn_part1 {F : FTy → Type} [FloatOps F] (main_arg1 : IVec S2x600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x600000 32 := broadcastInDim S2x600000 ![] bcast_S_S2x600000 main_c_8
  let main_v25 : IVec S2x600000 1 := cmpi .sge main_arg1 main_v24
  let main_c_9 : IVec S_ 32 := constantI S_ 32 50000#32
  let main_v26 : IVec S2x600000 32 := broadcastInDim S2x600000 ![] bcast_S_S2x600000 main_c_9
  let main_v27 : IVec S2x600000 1 := cmpi .slt main_arg1 main_v26
  let main_v28 : IVec S2x600000 1 := andi main_v25 main_v27
  let main_c_10 : IVec S_ 1 := constantI S_ 1 1#1
  let main_v29 : IVec S_ 1 := (fun x v => Host.reduce IntOp.andi x v reducesTo_S2x600000_S_d0_1 h_S_) main_v28 main_c_10
  let main_v30 : IVec S_ 1 := andi main_v23 main_v29
  main_v30

def fn {F : FTy → Type} [FloatOps F] (main_arg0 : FVec F S50000x128 .f32) (main_arg1 : IVec S2x600000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S5000x128 : Shape := ⟨2, ![5000, 128]⟩
abbrev S600000x128 : Shape := ⟨2, ![600000, 128]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩
abbrev S5000 : Shape := ⟨1, ![5000]⟩

abbrev nBuf : Space → Nat
  | .hbm => 78
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S50000, .f32⟩
  | .hbm, ⟨14, _⟩ => ⟨S600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S600000, .f32⟩
  | .hbm, ⟨41, _⟩ => ⟨S600000x1, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x64, .f32⟩
  | .hbm, ⟨61, _⟩ => ⟨S_, .i32⟩
  | .hbm, ⟨62, _⟩ => ⟨S600000, .i32⟩
  | .hbm, ⟨63, _⟩ => ⟨S600000, .i1⟩
  | .hbm, ⟨64, _⟩ => ⟨S_, .i32⟩
  | .hbm, ⟨65, _⟩ => ⟨S600000, .i32⟩
  | .hbm, ⟨66, _⟩ => ⟨S600000, .i32⟩
  | .hbm, ⟨67, _⟩ => ⟨S600000, .i32⟩
  | .hbm, ⟨68, _⟩ => ⟨S600000x1, .i32⟩
  | .hbm, ⟨69, _⟩ => ⟨S600000x64, .f32⟩
  | .hbm, ⟨70, _⟩ => ⟨S600000x64, .f32⟩
  | .hbm, ⟨71, _⟩ => ⟨S600000x64, .f32⟩
  | .hbm, ⟨72, _⟩ => ⟨S_, .f32⟩
  | .hbm, ⟨73, _⟩ => ⟨S50000x64, .f32⟩
  | .hbm, ⟨74, _⟩ => ⟨S600000x1, .i32⟩
  | .hbm, ⟨75, _⟩ => ⟨S50000x64, .f32⟩
  | .hbm, ⟨76, _⟩ => ⟨S1x64, .f32⟩
  | .hbm, ⟨77, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S600000_S600000x1 : S600000.ShapeCasts S600000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S5000x128_S128x128_S5000x128_1_0_0_1_n_n_wf : DotDims.WF S5000x128 S128x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩

abbrev nBuf : Space → Nat
  | .hbm => 150
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x64, .f32⟩
  | 5 => ⟨S64, .f32⟩
  | 6 => ⟨S1x600000, .i32⟩
  | 7 => ⟨S600000, .i32⟩
  | 8 => ⟨S1x600000, .i32⟩
  | 9 => ⟨S600000, .i32⟩
  | 10 => ⟨S50000x128, .f32⟩
  | 11 => ⟨S_, .f32⟩
  | 12 => ⟨S50000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S_, .f32⟩
  | 22 => ⟨S600000, .f32⟩
  | 23 => ⟨S50000, .f32⟩
  | 24 => ⟨S_, .f32⟩
  | 25 => ⟨S50000, .f32⟩
  | 26 => ⟨S50000, .f32⟩
  | 27 => ⟨S50000, .f32⟩
  | 28 => ⟨S_, .i32⟩
  | 29 => ⟨S600000, .i32⟩
  | 30 => ⟨S600000, .i1⟩
  | 31 => ⟨S_, .i32⟩
  | 32 => ⟨S600000, .i32⟩
  | 33 => ⟨S600000, .i32⟩
  | 34 => ⟨S600000, .i32⟩
  | 35 => ⟨S600000x1, .i32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x64, .f32⟩
  | 75 => ⟨S_, .f32⟩
  | 76 => ⟨S50000, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S_, .f32⟩
  | 86 => ⟨S600000, .f32⟩
  | 87 => ⟨S50000, .f32⟩
  | 88 => ⟨S_, .f32⟩
  | 89 => ⟨S50000, .f32⟩
  | 90 => ⟨S50000, .f32⟩
  | 91 => ⟨S50000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000, .f32⟩
  | 110 => ⟨S600000, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x64, .f32⟩
  | 120 => ⟨S600000x1, .f32⟩
  | 121 => ⟨S600000x64, .f32⟩
  | 122 => ⟨S600000x64, .f32⟩
  | 123 => ⟨S_, .f32⟩
  | 124 => ⟨S50000x64, .f32⟩
  | 125 => ⟨S600000x1, .i32⟩
  | 126 => ⟨S50000x64, .f32⟩
  | 127 => ⟨S50000, .f32⟩
  | _ => ⟨S50000x128, .f32⟩

abbrev hbmTy0_1 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000, .f32⟩
  | 9 => ⟨S_, .f32⟩
  | 10 => ⟨S50000, .f32⟩
  | 11 => ⟨S50000, .f32⟩
  | 12 => ⟨S50000x1, .f32⟩
  | 13 => ⟨S50000x64, .f32⟩
  | 14 => ⟨S50000x64, .f32⟩
  | 15 => ⟨S50000x64, .f32⟩
  | 16 => ⟨S_, .f32⟩
  | 17 => ⟨S50000, .f32⟩
  | 18 => ⟨S50000x1, .f32⟩
  | 19 => ⟨S50000x1, .f32⟩
  | 20 => ⟨S50000x64, .f32⟩
  | 21 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_call1_cst_0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_cst_1 : Ref sig .tc := ⟨.hbm, 144, rfl⟩
abbrev main_call1_v7 : Ref sig .tc := ⟨.hbm, 145, rfl⟩
abbrev main_call1_v8 : Ref sig .tc := ⟨.hbm, 146, rfl⟩
abbrev main_call1_v9 : Ref sig .tc := ⟨.hbm, 147, rfl⟩
abbrev main_call1_v10 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

class Facts : Prop extends Facts₀ where

variable [Facts]
-- ==== Proof.KernelRun.lean ====
/-
  The idealized kernel's run with its result array named.

  @main is seven segments: host operations, the first dense product, host operations (the first
  message passing), the first combine, the second dense product, host operations (the second
  message passing), the second combine.  The contents of every buffer at each segment boundary are
  a fold from the launch memory; the last boundary's contents are what every weakly fair execution
  ends in.  Here that statement is read at the result buffer: the run ends with the result array at
  the last boundary's contents and with the six argument arrays as launched.
-/
import proofs.«139748_j62474594288248_1_alg».proof.Proof.Gen.KernelIdeal.Frame

set_option maxRecDepth 16384

noncomputable section

namespace Cert.KernelIdeal.Final

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the
    last segment boundary's contents and the argument arrays as launched. -/
theorem run_result : θ_run defs (onTc (τ := τ) (main (F := F))) ⟨m, fun _ => 0, ρ⟩ (fun r => ∀ c : Dev nD,
      r.2.mem ((c.tc : Thread nD τ).loc main_v58) = W7 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v58 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Final

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.Spec.lean ====
/-
  The graph-convolution network's stages as functions on the extended reals, entry by entry.

  * a dense layer: `(x · w)(r, c) = ∑ q, x (r, q) · w (q, c)`;
  * a node's combined row: `agg (r, c) + h (r, c) · dsq (r, 0) + b (0, c)` — the messages summed into
    node `r`, plus its own row scaled by the squared inverse root of its degree (a column), plus
    the bias (a row) —, and its rectified form, the maximum with zero;
  * a row's log-softmax: with `M` the row's maximum (folded from the least float), the entry minus
    `M` minus the logarithm of the sum over the row of `exp (entry − M)`.

  Folding the maximum from a starting value `A` and then taking the maximum with `A` again changes
  nothing; and a sum started from the float zero is the sum.
-/
import Idealize.ShloMosaic.Lib.ValueIdx
import Idealize.ShloMosaic.PureOps.Ideal.Laws

noncomputable section

open scoped BigOperators

namespace Cert.Gcn

open Idealize.ShloMosaic Idealize.ShloMosaic.ValueIdx

variable {n k d : ℕ}

/-- Entry `(r, c)` of the product of `x` (rows × inner) with `w` (inner × columns). -/
def denseAt (x : (⟨2, ![n, k]⟩ : Shape).Idx → EReal) (w : (⟨2, ![k, d]⟩ : Shape).Idx → EReal) (r : Fin n) (c : Fin d) : EReal :=
  ∑ q : Fin k, x (ix2 r q) * w (ix2 q c)

/-- The product as an array. -/
def dense (x : (⟨2, ![n, k]⟩ : Shape).Idx → EReal) (w : (⟨2, ![k, d]⟩ : Shape).Idx → EReal) : (⟨2, ![n, d]⟩ : Shape).Idx → EReal :=
  fun i => denseAt x w (i 0) (i 1)

theorem dense_apply (x : (⟨2, ![n, k]⟩ : Shape).Idx → EReal) (w : (⟨2, ![k, d]⟩ : Shape).Idx → EReal) (r : Fin n) (c : Fin d) :
    dense x w (ix2 r c) = denseAt x w r c := rfl

/-- Entry `(r, c)` of a node's combined row: messages, own row scaled by its column factor, bias. -/
def combineAt (agg h : (⟨2, ![n, d]⟩ : Shape).Idx → EReal) (dsq : (⟨2, ![n, 1]⟩ : Shape).Idx → EReal)
    (b : (⟨2, ![1, d]⟩ : Shape).Idx → EReal) (r : Fin n) (c : Fin d) : EReal :=
  agg (ix2 r c) + h (ix2 r c) * dsq (ix2 r (0 : Fin 1)) + b (ix2 (0 : Fin 1) c)

/-- The float zero, as the printed word. -/
abbrev zeroF : EReal := Ideal.ofBits .f32 0x00000000#32

/-- The least float (the maximum's starting value), as the printed word. -/
abbrev leastF : EReal := Ideal.ofBits .f32 0xFF800000#32

/-- The rectified combined rows, as an array. -/
def reluCombine (agg h : (⟨2, ![n, d]⟩ : Shape).Idx → EReal) (dsq : (⟨2, ![n, 1]⟩ : Shape).Idx → EReal)
    (b : (⟨2, ![1, d]⟩ : Shape).Idx → EReal) : (⟨2, ![n, d]⟩ : Shape).Idx → EReal :=
  fun i => max (combineAt agg h dsq b (i 0) (i 1)) zeroF

theorem reluCombine_apply (agg h : (⟨2, ![n, d]⟩ : Shape).Idx → EReal) (dsq : (⟨2, ![n, 1]⟩ : Shape).Idx → EReal)
    (b : (⟨2, ![1, d]⟩ : Shape).Idx → EReal) (r : Fin n) (c : Fin d) :
    reluCombine agg h dsq b (ix2 r c) = max (combineAt agg h dsq b r c) zeroF := rfl

/-- A row's maximum, folded from the least float. -/
def rowMax (v : Fin d → EReal) : EReal := (Finset.univ : Finset (Fin d)).fold max leastF v

/-- A row's log-softmax at column `c`. -/
def logSoftmaxAt (v : Fin d → EReal) (c : Fin d) : EReal :=
  (v c - rowMax v) - Ideal.log (∑ q : Fin d, Ideal.exp (v q - rowMax v))

/-- The log-softmax of the combined rows, as an array. -/
def logSoftmaxCombine (agg h : (⟨2, ![n, d]⟩ : Shape).Idx → EReal) (dsq : (⟨2, ![n, 1]⟩ : Shape).Idx → EReal)
    (b : (⟨2, ![1, d]⟩ : Shape).Idx → EReal) : (⟨2, ![n, d]⟩ : Shape).Idx → EReal :=
  fun i => logSoftmaxAt (fun q => combineAt agg h dsq b (i 0) q) (i 1)

theorem logSoftmaxCombine_apply (agg h : (⟨2, ![n, d]⟩ : Shape).Idx → EReal) (dsq : (⟨2, ![n, 1]⟩ : Shape).Idx → EReal)
    (b : (⟨2, ![1, d]⟩ : Shape).Idx → EReal) (r : Fin n) (c : Fin d) :
    logSoftmaxCombine agg h dsq b (ix2 r c) = logSoftmaxAt (fun q => combineAt agg h dsq b r q) c := rfl

/-- Taking the maximum with the fold's own starting value again changes nothing. -/
theorem max_rowMax (v : Fin d → EReal) : max leastF (rowMax v) = rowMax v :=
  max_eq_right ((Finset.le_fold_max leastF).mpr (Or.inl le_rfl))

/-- A sum started from the float zero is the sum. -/
theorem zeroF_add (s : EReal) : zeroF + s = s := by
  show Ideal.ofBits .f32 0x00000000#32 + s = s
  rw [Ideal.ofBits_zero_f32, zero_add]

end Cert.Gcn

end
-- ==== Proof.Dense1.lean ====
/-
  The first dense layer's region: the node features times the first weight matrix.

  The grid has ten points; point `t` stages rows `5000 t … 5000 t + 4999` of the left operand, the
  whole right operand, and writes back rows `5000 t … 5000 t + 4999` of the product.  The body
  multiplies the staged rows by the right operand on the matrix unit into a zero accumulator; at the
  exact extended reals (a change of float format is the identity) entry `(p, c)` of what it stores
  is `∑ q, rows (p, q) · w (q, c)`.  So each point writes back its rows of the whole product, the ten
  blocks cover the array, and the array ends holding the product of the two arrays the region found.
-/
import proofs.«139748_j62474594288248_1_alg».proof.Proof.Gen.KernelIdeal.Frame
import Idealize.ShloMosaic.Lib.Pipeline.Value
import proofs.«139748_j62474594288248_1_alg».proof.Proof.LibDense
import proofs.«139748_j62474594288248_1_alg».proof.Proof.Spec

set_option maxRecDepth 16384

noncomputable section

namespace Cert.KernelIdeal.Dense1

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The product's operand indices -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry `(p, c)` of what the body stores: the staged rows times the right operand. -/
theorem pay_apply (x0 : Vec Ideal S5000x128 .f32) (x1 : Vec Ideal S128x128 .f32) (p : Fin 5000) (c : Fin 128) :
    k0_pay1 x0 x1 (ix2 p c) = denseAt (n := 5000) (k := 128) (d := 128) x0 x1 p c := by
  unfold k0_pay1 denseAt
  refine (LibDense.matmul_zero_apply dot_S5000x128_S128x128_S5000x128_1_0_0_1_n_n rfl rfl lhs0 lhs1 rhs0 rhs1 none _ _ p c).trans ?_
  rfl

/-! ## The index maps, decided over the grid -/

theorem idx_facts : ∀ t : Fin cfg0.N, win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 ∧ win0_2.index t (0 : Fin 2) ≤ 9 :=
  (by decide +kernel : ∀ t : Fin grid0.N, _)

theorem idx_onto : ∀ q0 : Fin 10, ∃ t : Fin cfg0.N, win0_2.index t = ![q0.val, 0] :=
  (by decide +kernel : ∀ q0 : Fin 10, ∃ t : Fin grid0.N, win0_2.index t = ![q0.val, 0])

/-! ## What a point writes back -/

/-- Point `t` writes back rows `5000 t …` of the product of the arrays the region found. -/
theorem flushed_eq (c : Dev nD) (t : Fin cfg0.N) :
    (dat0 V c).flushed 2 t = ((cfg0.win 2).blk t).view.read (Elt Ideal)
      (dense (n := 50000) (k := 128) (d := 128) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  have hr : win0_2.index t (0 : Fin 2) * 5000 + p.val < 50000 := by have := p.isLt; omega
  have hemb : ((cfg0.win 2).blk t).view.emb (ix2 p q) = ix2 (⟨win0_2.index t (0 : Fin 2) * 5000 + p.val, hr⟩ : Fin 50000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; rw [e4]; omega
  show k0_pay1 (iblk0 V c 0 t) (iblk0 V c 1 t) (ix2 p q)
    = dense (n := 50000) (k := 128) (d := 128) (V c main_arg0) (V c main_arg2) (((cfg0.win 2).blk t).view.emb (ix2 p q))
  rw [hemb, dense_apply]
  refine (pay_apply _ _ p q).trans ?_
  unfold denseAt
  refine Finset.sum_congr rfl fun k _ => ?_
  have h0 : iblk0 V c 0 t (ix2 p k) = V c main_arg0 (ix2 (⟨win0_2.index t (0 : Fin 2) * 5000 + p.val, hr⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + p.val; rw [e0]; omega
    | ⟨1, _⟩ => show win0_0.index t (1 : Fin 2) * 128 + 1 * k.val = k.val; rw [e1]; omega
  have h1 : iblk0 V c 1 t (ix2 k q) = V c main_arg2 (ix2 k q) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  rw [h0, h1]

/-! ## The ten blocks cover the array -/

theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves: the product of the two arrays it found. -/
theorem final (c : Dev nD) : (dat0 V c).arrAt 2 cfg0.N
    = dense (n := 50000) (k := 128) (d := 128) (V c main_arg0) (V c main_arg2) :=
  (dat0 V c).arrAt_eq_of_cover 2 _ (fun t _ => flushed_eq V c t) cover

end Cert.KernelIdeal.Dense1

end
-- ==== Proof.Dense2.lean ====
/-
  The second dense layer's region: the rectified hidden features times the second weight matrix.

  The grid has ten points; point `t` stages rows `5000 t … 5000 t + 4999` of the left operand, the
  whole right operand, and writes back rows `5000 t … 5000 t + 4999` of the product.  The body
  multiplies the staged rows by the right operand on the matrix unit into a zero accumulator; at the
  exact extended reals (a change of float format is the identity) entry `(p, c)` of what it stores
  is `∑ q, rows (p, q) · w (q, c)`.  So each point writes back its rows of the whole product, the ten
  blocks cover the array, and the array ends holding the product of the two arrays the region found.
-/
import proofs.«139748_j62474594288248_1_alg».proof.Proof.Gen.KernelIdeal.Frame
import Idealize.ShloMosaic.Lib.Pipeline.Value
import proofs.«139748_j62474594288248_1_alg».proof.Proof.LibDense
import proofs.«139748_j62474594288248_1_alg».proof.Proof.Spec

set_option maxRecDepth 16384

noncomputable section

namespace Cert.KernelIdeal.Dense2

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The product's operand indices -/

theorem lhs0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry `(p, c)` of what the body stores: the staged rows times the right operand. -/
theorem pay_apply (x0 : Vec Ideal S5000x128 .f32) (x1 : Vec Ideal S128x64 .f32) (p : Fin 5000) (c : Fin 64) :
    k2_pay1 x0 x1 (ix2 p c) = denseAt (n := 5000) (k := 128) (d := 64) x0 x1 p c := by
  unfold k2_pay1 denseAt
  refine (LibDense.matmul_zero_apply dot_S5000x128_S128x64_S5000x64_1_0_0_1_n_n rfl rfl lhs0 lhs1 rhs0 rhs1 none _ _ p c).trans ?_
  rw [shapeCast_self]
  rfl

/-! ## The index maps, decided over the grid -/

theorem idx_facts : ∀ t : Fin cfg2.N, win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 ∧ win2_2.index t (0 : Fin 2) ≤ 9 :=
  (by decide +kernel : ∀ t : Fin grid2.N, _)

theorem idx_onto : ∀ q0 : Fin 10, ∃ t : Fin cfg2.N, win2_2.index t = ![q0.val, 0] :=
  (by decide +kernel : ∀ q0 : Fin 10, ∃ t : Fin grid2.N, win2_2.index t = ![q0.val, 0])

/-! ## What a point writes back -/

/-- Point `t` writes back rows `5000 t …` of the product of the arrays the region found. -/
theorem flushed_eq (c : Dev nD) (t : Fin cfg2.N) :
    (dat2 V c).flushed 2 t = ((cfg2.win 2).blk t).view.read (Elt Ideal)
      (dense (n := 50000) (k := 128) (d := 64) (V c main_v43) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have hr : win2_2.index t (0 : Fin 2) * 5000 + p.val < 50000 := by have := p.isLt; omega
  have hemb : ((cfg2.win 2).blk t).view.emb (ix2 p q) = ix2 (⟨win2_2.index t (0 : Fin 2) * 5000 + p.val, hr⟩ : Fin 50000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 64 + 1 * q.val = q.val; rw [e4]; omega
  show k2_pay1 (iblk2 V c 0 t) (iblk2 V c 1 t) (ix2 p q)
    = dense (n := 50000) (k := 128) (d := 64) (V c main_v43) (V c main_arg4) (((cfg2.win 2).blk t).view.emb (ix2 p q))
  rw [hemb, dense_apply]
  refine (pay_apply _ _ p q).trans ?_
  unfold denseAt
  refine Finset.sum_congr rfl fun k _ => ?_
  have h0 : iblk2 V c 0 t (ix2 p k) = V c main_v43 (ix2 (⟨win2_2.index t (0 : Fin 2) * 5000 + p.val, hr⟩ : Fin 50000) k) := by
    show V c main_v43 (((cfg2.win 0).blk t).view.emb (ix2 p k)) = _
    refine congrArg (V c main_v43) (funext fun a => Fin.ext ?_)
    match a with
    | ⟨0, _⟩ => show win2_0.index t (0 : Fin 2) * 5000 + 1 * p.val = win2_2.index t (0 : Fin 2) * 5000 + p.val; rw [e0]; omega
    | ⟨1, _⟩ => show win2_0.index t (1 : Fin 2) * 128 + 1 * k.val = k.val; rw [e1]; omega
  have h1 : iblk2 V c 1 t (ix2 k q) = V c main_arg4 (ix2 k q) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; rw [e2]; omega
    | ⟨1, _⟩ => show win2_1.index t (1 : Fin 2) * 64 + 1 * q.val = q.val; rw [e3]; omega
  rw [h0, h1]

/-! ## The ten blocks cover the array -/

theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v44).slice (win2_2.rect t)).set ↔ _
  rw [View.set_slice_whole, Rect.mem_set_unit]
  exact Iff.rfl

theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves: the product of the two arrays it found. -/
theorem final (c : Dev nD) : (dat2 V c).arrAt 2 cfg2.N
    = dense (n := 50000) (k := 128) (d := 64) (V c main_v43) (V c main_arg4) :=
  (dat2 V c).arrAt_eq_of_cover 2 _ (fun t _ => flushed_eq V c t) cover

end Cert.KernelIdeal.Dense2

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.Pay1.lean ====
/-
  What the first combine region's body stores, entry by entry.

  From its four staged blocks — the summed messages, the node's own rows, the column of squared
  inverse root degrees and the bias row — the body computes, at `(p, c)`,
  `max (agg (p, c) + h (p, c) · dsq (p, 0) + b (0, c)) 0`: the same-shape casts are identities, the
  column is broadcast along the lanes and the row along the sublanes.
-/
import proofs.«139748_j62474594288248_1_alg».proof.Proof.Gen.KernelIdeal.Skeleton
import proofs.«139748_j62474594288248_1_alg».proof.Proof.LibLayout
import proofs.«139748_j62474594288248_1_alg».proof.Proof.Spec

set_option maxRecDepth 16384

noncomputable section

namespace Cert.KernelIdeal.Pay1

open Cert.KernelIdeal Cert.KernelIdeal.Gen Idealize.ShloMosaic Idealize.ShloMosaic.ValueIdx
open Cert.Gcn

theorem pay_apply (x0 x1 : Vec Ideal S5000x128 .f32) (x2 : Vec Ideal S5000x1 .f32) (x3 : Vec Ideal S1x128 .f32)
    (p : Fin 5000) (c : Fin 128) :
    k1_pay1 x0 x1 x2 x3 (ix2 p c) = max (combineAt (n := 5000) (d := 128) x0 x1 x2 x3 p c) zeroF := by
  unfold k1_pay1 combineAt zeroF
  simp only [shapeCast_self, maximumf_apply, addf_apply, mulf_apply, broadcast_apply,
    Cert.LibLayout.broadcastTo_a1_ab_apply, broadcastTo_1b_ab_apply]
  rfl

end Cert.KernelIdeal.Pay1

end
-- ==== Proof.Combine1.lean ====
/-
  The first combine region: messages, own rows and bias combined and rectified.

  The grid has ten points; point `t` stages rows `5000 t … 5000 t + 4999` of the summed messages, of
  the nodes' own rows and of the column of squared inverse root degrees, the whole bias row, and
  writes back the same rows of the result.  Row `p` of a staged block is row `5000 t + p` of its
  array, so what the body computes from the blocks at `(p, c)` is the whole-array function at
  `(5000 t + p, c)`; the ten blocks cover the array, which ends holding that function of the four
  arrays the region found.
-/
import proofs.«139748_j62474594288248_1_alg».proof.Proof.Gen.KernelIdeal.Frame
import Idealize.ShloMosaic.Lib.Pipeline.Value
import proofs.«139748_j62474594288248_1_alg».proof.Proof.Pay1
import proofs.«139748_j62474594288248_1_alg».proof.Proof.Spec

set_option maxRecDepth 16384

noncomputable section

namespace Cert.KernelIdeal.Combine1

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx_facts : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

theorem idx_onto : ∀ q0 : Fin 10, ∃ t : Fin cfg1.N, win1_4.index t = ![q0.val, 0] :=
  (by decide +kernel : ∀ q0 : Fin 10, ∃ t : Fin grid1.N, win1_4.index t = ![q0.val, 0])

/-! ## What a point writes back -/

/-- Point `t` writes back rows `5000 t …` of the whole-array function of the arrays the region found. -/
theorem flushed_eq (c : Dev nD) (t : Fin cfg1.N) :
    (dat1 V c).flushed 4 t = ((cfg1.win 4).blk t).view.read (Elt Ideal)
      (reluCombine (n := 50000) (d := 128) (V c main_v41) (V c main_v29) (V c main_v12) (V c main_v42)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  have hr : win1_4.index t (0 : Fin 2) * 5000 + p.val < 50000 := by have := p.isLt; omega
  have hemb : ((cfg1.win 4).blk t).view.emb (ix2 p q) = ix2 (⟨win1_4.index t (0 : Fin 2) * 5000 + p.val, hr⟩ : Fin 50000) q := by
    funext a; apply Fin.ext
    match a with
    | ⟨0, _⟩ => show win1_4.index t (0 : Fin 2) * 5000 + 1 * p.val = win1_4.index t (0 : Fin 2) * 5000 + p.val; omega
    | ⟨1, _⟩ => show win1_4.index t (1 : Fin 2) * 128 + 1 * q.val = q.val; rw [e8]; omega
  have h0 : ∀ q' : Fin 128, iblk1 V c 0 t (ix2 p q') = V c main_v41 (ix2 (⟨win1_4.index t (0 : Fin 2) * 5000 + p.val, hr⟩ : Fin 50000) q') := by
    intro q'
    show V c main_v41 (((cfg1.win 0).blk t).view.emb (ix2 p q')) = _
    refine congrArg (V c main_v41) (funext fun a => Fin.ext ?_)
    match a with
    | ⟨0, _⟩ => show win1_0.index t (0 : Fin 2) * 5000 + 1 * p.val = win1_4.index t (0 : Fin 2) * 5000 + p.val; rw [e0]; omega
    | ⟨1, _⟩ => show win1_0.index t (1 : Fin 2) * 128 + 1 * q'.val = q'.val; rw [e1]; omega
  have h1 : ∀ q' : Fin 128, iblk1 V c 1 t (ix2 p q') = V c main_v29 (ix2 (⟨win1_4.index t (0 : Fin 2) * 5000 + p.val, hr⟩ : Fin 50000) q') := by
    intro q'
    show V c main_v29 (((cfg1.win 1).blk t).view.emb (ix2 p q')) = _
    refine congrArg (V c main_v29) (funext fun a => Fin.ext ?_)
    match a with
    | ⟨0, _⟩ => show win1_1.index t (0 : Fin 2) * 5000 + 1 * p.val = win1_4.index t (0 : Fin 2) * 5000 + p.val; rw [e2]; omega
    | ⟨1, _⟩ => show win1_1.index t (1 : Fin 2) * 128 + 1 * q'.val = q'.val; rw [e3]; omega
  have h2 : iblk1 V c 2 t (ix2 p (0 : Fin 1)) = V c main_v12 (ix2 (⟨win1_4.index t (0 : Fin 2) * 5000 + p.val, hr⟩ : Fin 50000) (0 : Fin 1)) := by
    show V c main_v12 (((cfg1.win 2).blk t).view.emb (ix2 p (0 : Fin 1))) = _
    refine congrArg (V c main_v12) (funext fun a => Fin.ext ?_)
    match a with
    | ⟨0, _⟩ => show win1_2.index t (0 : Fin 2) * 5000 + 1 * p.val = win1_4.index t (0 : Fin 2) * 5000 + p.val; rw [e4]; omega
    | ⟨1, _⟩ => show win1_2.index t (1 : Fin 2) * 1 + 1 * 0 = 0; rw [e5]
  have h3 : ∀ q' : Fin 128, iblk1 V c 3 t (ix2 (0 : Fin 1) q') = V c main_v42 (ix2 (0 : Fin 1) q') := by
    intro q'
    show V c main_v42 (((cfg1.win 3).blk t).view.emb (ix2 (0 : Fin 1) q')) = _
    refine congrArg (V c main_v42) (funext fun a => Fin.ext ?_)
    match a with
    | ⟨0, _⟩ => show win1_3.index t (0 : Fin 2) * 1 + 1 * 0 = 0; rw [e6]
    | ⟨1, _⟩ => show win1_3.index t (1 : Fin 2) * 128 + 1 * q'.val = q'.val; rw [e7]; omega
  have hrow : ∀ q' : Fin 128, combineAt (n := 5000) (d := 128) (iblk1 V c 0 t) (iblk1 V c 1 t) (iblk1 V c 2 t) (iblk1 V c 3 t) p q'
      = combineAt (n := 50000) (d := 128) (V c main_v41) (V c main_v29) (V c main_v12) (V c main_v42) (⟨win1_4.index t (0 : Fin 2) * 5000 + p.val, hr⟩ : Fin 50000) q' := by
    intro q'
    unfold combineAt
    rw [h0 q', h1 q', h2, h3 q']
  show k1_pay1 (iblk1 V c 0 t) (iblk1 V c 1 t) (iblk1 V c 2 t) (iblk1 V c 3 t) (ix2 p q)
    = (reluCombine (n := 50000) (d := 128) (V c main_v41) (V c main_v29) (V c main_v12) (V c main_v42)) (((cfg1.win 4).blk t).view.emb (ix2 p q))
  rw [hemb, reluCombine_apply]
  refine (Cert.KernelIdeal.Pay1.pay_apply _ _ _ _ p q).trans ?_
  rw [hrow q]

/-! ## The ten blocks cover the array -/

theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array the region leaves: the whole-array function of the four arrays it found. -/
theorem final (c : Dev nD) : (dat1 V c).arrAt 4 cfg1.N
    = reluCombine (n := 50000) (d := 128) (V c main_v41) (V c main_v29) (V c main_v12) (V c main_v42) :=
  (dat1 V c).arrAt_eq_of_cover 4 _ (fun t _ => flushed_eq V c t) cover

end Cert.KernelIdeal.Combine1

end
-- ==== Proof.Pay3.lean ====
/-
  What the second combine region's body stores, entry by entry.

  The body first forms the combined rows `val (p, c) = agg (p, c) + h (p, c) · dsq (p, 0) + b (0, c)`
  (as the first combine does, without the rectifier), then per row: the maximum `M` over the 64
  lanes (folded from the least float), `exp (val − M)`, its sum over the lanes, and stores
  `(val − M) − log (that sum)`: the row's log-softmax.  A lane reduction of a `[5000, 64]` block at
  row `p` ranges over the entries `(p, q)`; the reduced column is cast to `[5000, 1]` and broadcast
  back along the lanes.
-/
import proofs.«139748_j62474594288248_1_alg».proof.Proof.Gen.KernelIdeal.Skeleton
import proofs.«139748_j62474594288248_1_alg».proof.Proof.LibLayout
import proofs.«139748_j62474594288248_1_alg».proof.Proof.Spec

set_option maxRecDepth 16384

noncomputable section

namespace Cert.KernelIdeal.Pay3

open Cert.KernelIdeal Cert.KernelIdeal.Gen Idealize.ShloMosaic Idealize.ShloMosaic.ValueIdx
open Cert.Gcn

/-- The combined rows of the four staged blocks, as the body forms them. -/
def valArr (x0 x1 : Vec Ideal S5000x64 .f32) (x2 : Vec Ideal S5000x1 .f32) (x3 : Vec Ideal S1x64 .f32) : FVec Ideal S5000x64 .f32 :=
  addf (addf (shapeCast S5000x64 x0 shapeCasts_S5000x64_S5000x64)
      (mulf (shapeCast S5000x64 x1 shapeCasts_S5000x64_S5000x64)
        (broadcastTo S5000x64 (shapeCast S5000x1 x2 shapeCasts_S5000x1_S5000x1) broadcasts_S5000x1_S5000x64)))
    (broadcastTo S5000x64 (shapeCast S1x64 x3 shapeCasts_S1x64_S1x64) broadcasts_S1x64_S5000x64)

theorem valArr_apply (x0 x1 : Vec Ideal S5000x64 .f32) (x2 : Vec Ideal S5000x1 .f32) (x3 : Vec Ideal S1x64 .f32)
    (p : Fin 5000) (c : Fin 64) :
    valArr x0 x1 x2 x3 (ix2 p c) = combineAt (n := 5000) (d := 64) x0 x1 x2 x3 p c := by
  unfold valArr combineAt
  simp only [shapeCast_self, addf_apply, mulf_apply,
    Cert.LibLayout.broadcastTo_a1_ab_apply, broadcastTo_1b_ab_apply]

/-- The row maxima of a block, as the body forms them: a column. -/
def maxCol (v : FVec Ideal S5000x64 .f32) : FVec Ideal S5000x1 .f32 :=
  shapeCast S5000x1 (multiReduction .maximumf [1] S5000 v 0xFF800000#32 reduces_S5000x64_S5000 (.inl rfl) rfl) shapeCasts_S5000_S5000x1

/-- The block shifted by its row maxima. -/
def shifted (v : FVec Ideal S5000x64 .f32) : FVec Ideal S5000x64 .f32 :=
  subf v (broadcastTo S5000x64 (maxCol v) broadcasts_S5000x1_S5000x64)

/-- The logarithm of each row's sum of exponentials of the shifted block: a column. -/
def logSumCol (v : FVec Ideal S5000x64 .f32) : FVec Ideal S5000x1 .f32 :=
  log (shapeCast S5000x1 (multiReduction .add [1] S5000 (exp (shifted v)) 0x00000000#32 reduces_S5000x64_S5000 (.inl rfl) rfl) shapeCasts_S5000_S5000x1)

/-- The body's stored value is the shifted combined rows minus the column of log-sums. -/
theorem pay_eq (x0 x1 : Vec Ideal S5000x64 .f32) (x2 : Vec Ideal S5000x1 .f32) (x3 : Vec Ideal S1x64 .f32) :
    k3_pay1 x0 x1 x2 x3 = subf (shifted (valArr x0 x1 x2 x3)) (broadcastTo S5000x64 (logSumCol (valArr x0 x1 x2 x3)) broadcasts_S5000x1_S5000x64) := rfl

/-- Row `p`'s coordinates inserted at lane `q`. -/
theorem lift_eq (p : Fin 5000) (q : Fin 64) :
    (reduces_S5000x64_S5000 : S5000x64.Reduces [1] S5000).lift (ix1 p) q = ix2 p q := by
  funext a; apply Fin.ext
  match a with
  | ⟨0, _⟩ => rfl
  | ⟨1, _⟩ => rfl

theorem maxCol_apply (v : FVec Ideal S5000x64 .f32) (p : Fin 5000) :
    maxCol v (ix2 p (0 : Fin 1)) = rowMax (fun q : Fin 64 => v (ix2 p q)) := by
  unfold maxCol rowMax leastF
  rw [Cert.LibLayout.shapeCast_a_a1_apply]
  refine (Ideal.multiReduction_maximumf_single v 0xFF800000#32 reduces_S5000x64_S5000 (.inl rfl) rfl (ix1 p)).trans ?_
  refine congrArg (fun f : Fin 64 → EReal => (Finset.univ : Finset (Fin 64)).fold max (Ideal.ofBits .f32 0xFF800000#32) f) (funext fun (q : Fin 64) => ?_)
  exact congrArg v (lift_eq p q)

theorem shifted_apply (v : FVec Ideal S5000x64 .f32) (p : Fin 5000) (c : Fin 64) :
    shifted v (ix2 p c) = v (ix2 p c) - rowMax (fun q : Fin 64 => v (ix2 p q)) := by
  unfold shifted
  rw [subf_apply, Cert.LibLayout.broadcastTo_a1_ab_apply, maxCol_apply]

theorem logSumCol_apply (v : FVec Ideal S5000x64 .f32) (p : Fin 5000) :
    logSumCol v (ix2 p (0 : Fin 1))
      = Ideal.log (∑ q : Fin 64, Ideal.exp (v (ix2 p q) - rowMax (fun q' : Fin 64 => v (ix2 p q')))) := by
  unfold logSumCol
  show Ideal.log (shapeCast S5000x1 (multiReduction .add [1] S5000 (exp (shifted v)) 0x00000000#32 reduces_S5000x64_S5000 (.inl rfl) rfl) shapeCasts_S5000_S5000x1 (ix2 p (0 : Fin 1))) = _
  rw [Cert.LibLayout.shapeCast_a_a1_apply]
  refine congrArg Ideal.log ?_
  refine (Ideal.multiReduction_add_single (exp (shifted v)) 0x00000000#32 reduces_S5000x64_S5000 (.inl rfl) rfl (ix1 p)).trans ?_
  show ∑ q : Fin 64, exp (shifted v) ((reduces_S5000x64_S5000 : S5000x64.Reduces [1] S5000).lift (ix1 p) q) = _
  refine Finset.sum_congr rfl fun (q : Fin 64) _ => ?_
  refine (congrArg (exp (shifted v)) (lift_eq p q)).trans ?_
  show Ideal.exp (shifted v (ix2 p q)) = _
  rw [shifted_apply]

/-- Entry `(p, c)` of what the body stores: the log-softmax of row `p` of the combined rows, at `c`. -/
theorem pay_apply (x0 x1 : Vec Ideal S5000x64 .f32) (x2 : Vec Ideal S5000x1 .f32) (x3 : Vec Ideal S1x64 .f32)
    (p : Fin 5000) (c : Fin 64) :
    k3_pay1 x0 x1 x2 x3 (ix2 p c) = logSoftmaxAt (fun q : Fin 64 => combineAt (n := 5000) (d := 64) x0 x1 x2 x3 p q) c := by
  rw [pay_eq, subf_apply, shifted_apply, Cert.LibLayout.broadcastTo_a1_ab_apply, logSumCol_apply]
  unfold logSoftmaxAt
  simp only [valArr_apply]

end Cert.KernelIdeal.Pay3

end
-- ==== Proof.Combine2.lean ====
/-
  The second combine region: messages, own rows and bias combined, then each row's log-softmax.

  The grid has ten points; point `t` stages rows `5000 t … 5000 t + 4999` of the summed messages, of
  the nodes' own rows and of the column of squared inverse root degrees, the whole bias row, and
  writes back the same rows of the result.  Row `p` of a staged block is row `5000 t + p` of its
  array, so what the body computes from the blocks at `(p, c)` is the whole-array function at
  `(5000 t + p, c)`; the ten blocks cover the array, which ends holding that function of the four
  arrays the region found.
-/
import proofs.«139748_j62474594288248_1_alg».proof.Proof.Gen.KernelIdeal.Frame
import Idealize.ShloMosaic.Lib.Pipeline.Value
import proofs.«139748_j62474594288248_1_alg».proof.Proof.Pay3
import proofs.«139748_j62474594288248_1_alg».proof.Proof.Spec

set_option maxRecDepth 16384

noncomputable section

namespace Cert.KernelIdeal.Combine2

open Cert.KernelIdeal Cert.KernelIdeal.Gen Idealize.ShloMosaic Idealize.ShloMosaic.TcCoe Idealize.SL.Sem Idealize.ShloMosaic.ValueIdx
open Idealize.ShloMosaic.Pipeline (Dat)
open Cert.Gcn

variable (V : (c : Dev nD) → (b : Ref sig .tc) → Buf (Elt Ideal) ((c : Thread nD τ).loc b))

theorem hz : (![0, 0] : Fin 2 → Nat) = fun _ => 0 := funext fun a => by fin_cases a <;> rfl

/-! ## The index maps, decided over the grid -/

theorem idx_facts : ∀ t : Fin cfg3.N, win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

theorem idx_onto : ∀ q0 : Fin 10, ∃ t : Fin cfg3.N, win3_4.index t = ![q0.val, 0] :=
  (by decide +kernel : ∀ q0 : Fin 10, ∃ t : Fin grid3.N, win3_4.index t = ![q0.val, 0])

/-! ## What a point writes back -/

/-- Point `t` writes back rows `5000 t …` of the whole-array function of the arrays the region found. -/
theorem flushed_eq (c : Dev nD) (t : Fin cfg3.N) :
    (dat3 V c).flushed 4 t = ((cfg3.win 4).blk t).view.read (Elt Ideal)
      (logSoftmaxCombine (n := 50000) (d := 64) (V c main_v56) (V c main_v44) (V c main_v12) (V c main_v57)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  have hr : win3_4.index t (0 : Fin 2) * 5000 + p.val < 50000 := by have := p.isLt; omega
  have hemb : ((cfg3.win 4).blk t).view.emb (ix2 p q) = ix2 (⟨win3_4.index t (0 : Fin 2) * 5000 + p.val, hr⟩ : Fin 50000) q := by
    funext a; apply Fin.ext
    match a with
    | ⟨0, _⟩ => show win3_4.index t (0 : Fin 2) * 5000 + 1 * p.val = win3_4.index t (0 : Fin 2) * 5000 + p.val; omega
    | ⟨1, _⟩ => show win3_4.index t (1 : Fin 2) * 64 + 1 * q.val = q.val; rw [e8]; omega
  have h0 : ∀ q' : Fin 64, iblk3 V c 0 t (ix2 p q') = V c main_v56 (ix2 (⟨win3_4.index t (0 : Fin 2) * 5000 + p.val, hr⟩ : Fin 50000) q') := by
    intro q'
    show V c main_v56 (((cfg3.win 0).blk t).view.emb (ix2 p q')) = _
    refine congrArg (V c main_v56) (funext fun a => Fin.ext ?_)
    match a with
    | ⟨0, _⟩ => show win3_0.index t (0 : Fin 2) * 5000 + 1 * p.val = win3_4.index t (0 : Fin 2) * 5000 + p.val; rw [e0]; omega
    | ⟨1, _⟩ => show win3_0.index t (1 : Fin 2) * 64 + 1 * q'.val = q'.val; rw [e1]; omega
  have h1 : ∀ q' : Fin 64, iblk3 V c 1 t (ix2 p q') = V c main_v44 (ix2 (⟨win3_4.index t (0 : Fin 2) * 5000 + p.val, hr⟩ : Fin 50000) q') := by
    intro q'
    show V c main_v44 (((cfg3.win 1).blk t).view.emb (ix2 p q')) = _
    refine congrArg (V c main_v44) (funext fun a => Fin.ext ?_)
    match a with
    | ⟨0, _⟩ => show win3_1.index t (0 : Fin 2) * 5000 + 1 * p.val = win3_4.index t (0 : Fin 2) * 5000 + p.val; rw [e2]; omega
    | ⟨1, _⟩ => show win3_1.index t (1 : Fin 2) * 64 + 1 * q'.val = q'.val; rw [e3]; omega
  have h2 : iblk3 V c 2 t (ix2 p (0 : Fin 1)) = V c main_v12 (ix2 (⟨win3_4.index t (0 : Fin 2) * 5000 + p.val, hr⟩ : Fin 50000) (0 : Fin 1)) := by
    show V c main_v12 (((cfg3.win 2).blk t).view.emb (ix2 p (0 : Fin 1))) = _
    refine congrArg (V c main_v12) (funext fun a => Fin.ext ?_)
    match a with
    | ⟨0, _⟩ => show win3_2.index t (0 : Fin 2) * 5000 + 1 * p.val = win3_4.index t (0 : Fin 2) * 5000 + p.val; rw [e4]; omega
    | ⟨1, _⟩ => show win3_2.index t (1 : Fin 2) * 1 + 1 * 0 = 0; rw [e5]
  have h3 : ∀ q' : Fin 64, iblk3 V c 3 t (ix2 (0 : Fin 1) q') = V c main_v57 (ix2 (0 : Fin 1) q') := by
    intro q'
    show V c main_v57 (((cfg3.win 3).blk t).view.emb (ix2 (0 : Fin 1) q')) = _
    refine congrArg (V c main_v57) (funext fun a => Fin.ext ?_)
    match a with
    | ⟨0, _⟩ => show win3_3.index t (0 : Fin 2) * 1 + 1 * 0 = 0; rw [e6]
    | ⟨1, _⟩ => show win3_3.index t (1 : Fin 2) * 64 + 1 * q'.val = q'.val; rw [e7]; omega
  have hrow : ∀ q' : Fin 64, combineAt (n := 5000) (d := 64) (iblk3 V c 0 t) (iblk3 V c 1 t) (iblk3 V c 2 t) (iblk3 V c 3 t) p q'
      = combineAt (n := 50000) (d := 64) (V c main_v56) (V c main_v44) (V c main_v12) (V c main_v57) (⟨win3_4.index t (0 : Fin 2) * 5000 + p.val, hr⟩ : Fin 50000) q' := by
    intro q'
    unfold combineAt
    rw [h0 q', h1 q', h2, h3 q']
  show k3_pay1 (iblk3 V c 0 t) (iblk3 V c 1 t) (iblk3 V c 2 t) (iblk3 V c 3 t) (ix2 p q)
    = (logSoftmaxCombine (n := 50000) (d := 64) (V c main_v56) (V c main_v44) (V c main_v12) (V c main_v57)) (((cfg3.win 4).blk t).view.emb (ix2 p q))
  rw [hemb, logSoftmaxCombine_apply]
  refine (Cert.KernelIdeal.Pay3.pay_apply _ _ _ _ p q).trans ?_
  exact congrArg (fun v : Fin 64 → EReal => logSoftmaxAt v q) (funext hrow)

/-! ## The ten blocks cover the array -/

theorem mem_blk (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v58).slice (win3_4.rect t)).set ↔ _
  rw [View.set_slice_whole, Rect.mem_set_unit]
  exact Iff.rfl

theorem cover (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The array the region leaves: the whole-array function of the four arrays it found. -/
theorem final (c : Dev nD) : (dat3 V c).arrAt 4 cfg3.N
    = logSoftmaxCombine (n := 50000) (d := 64) (V c main_v56) (V c main_v44) (V c main_v12) (V c main_v57) :=
  (dat3 V c).arrAt_eq_of_cover 4 _ (fun t _ => flushed_eq V c t) cover

end Cert.KernelIdeal.Combine2

end
-- ==== Proof.RefStages.lean ====
/-
  The reference network's stages, as functions of arrays.

  * `src`, `dst`: the two rows of the edge list;  `wrap`: an index below zero moved up by the number
    of nodes (what indexing an array with a negative index means);  `col`, `colF`: a length-`E` array
    as a column.
  * `degOf idx`: one plus the number of edges scattered to each node by the index column `idx`;
    `dinvOf`: its inverse square root;  `normOf`: per edge, the product of the two end nodes' factors.
  * `aggOf… h s d nrm`: the rows of `h` gathered at the edges' sources, scaled by the edges' factors,
    and summed into the edges' destinations.
  * `hidden`, `logits`: the messages plus the node's own row scaled by its squared factor plus the
    bias (rectified, for the hidden layer);  `logSoftmax`: each row shifted by its maximum, minus the
    logarithm of the row's sum of exponentials.
  * `network`: the two layers composed; `networkAt idx` is the same with the degree's index column
    given from outside.

  Read entry by entry, a dense layer, `hidden` and `logSoftmax ∘ logits` are the plain formulas of
  `Cert.Gcn`.
-/
import proofs.«139748_j62474594288248_1_alg».proof.Proof.Gen.ReferenceIdeal
import Idealize.ShloMosaic.PureOps.Reduce
import proofs.«139748_j62474594288248_1_alg».proof.Proof.LibLayout
import proofs.«139748_j62474594288248_1_alg».proof.Proof.LibDense
import proofs.«139748_j62474594288248_1_alg».proof.Proof.Spec

set_option maxRecDepth 16384

noncomputable section

open scoped BigOperators

namespace Cert.ReferenceIdeal.Stage

open Cert.ReferenceIdeal Cert.ReferenceIdeal.Gen Idealize.ShloMosaic Idealize.ShloMosaic.ValueIdx
open Cert.Gcn

/-! ## The stages -/

def src (ei : IVec S2x600000 32) : IVec S600000 32 :=
  shapeCast S600000 (extractStridedSlice S1x600000 ![0, 0] ei slices_S2x600000_S1x600000_0_0) shapeCasts_S1x600000_S600000
def dst (ei : IVec S2x600000 32) : IVec S600000 32 :=
  shapeCast S600000 (extractStridedSlice S1x600000 ![1, 0] ei slices_S2x600000_S1x600000_1_0) shapeCasts_S1x600000_S600000

def wrap (v : IVec S600000 32) : IVec S600000 32 :=
  select (cmpi .slt v (broadcastInDim S600000 ![] bcast_S_S600000 (constantI S_ 32 0#32)))
    (addi v (broadcastInDim S600000 ![] bcast_S_S600000 (constantI S_ 32 50000#32))) v
def col (v : IVec S600000 32) : IVec S600000x1 32 := broadcastInDim S600000x1 ![0] bcast_S600000_S600000x1_0 v
def colF (v : FVec Ideal S600000 .f32) : FVec Ideal S600000x1 .f32 := broadcastInDim S600000x1 ![0] bcast_S600000_S600000x1_0 v

def degOf (idx : IVec S600000x1 32) : FVec Ideal S50000 .f32 :=
  addf (Host.scatterAdd scatter_S50000_S600000x1_S600000_n_0_0_1
      (broadcastInDim S50000 ![] bcast_S_S50000 (constant (F := Ideal) S_ .f32 0x00000000#32)) idx
      (broadcastInDim S600000 ![] bcast_S_S600000 (constant (F := Ideal) S_ .f32 0x3F800000#32)))
    (broadcastInDim S50000 ![] bcast_S_S50000 (constant (F := Ideal) S_ .f32 0x3F800000#32))
def dinvOf (idx : IVec S600000x1 32) : FVec Ideal S50000 .f32 := Host.rsqrt (degOf idx)
def normOf (dinv : FVec Ideal S50000 .f32) (s d : IVec S600000 32) : FVec Ideal S600000 .f32 :=
  mulf (Host.gather gather_S50000_S600000x1_S600000_n_0_n_n_0_1_1 dinv (col (wrap s)))
    (Host.gather gather_S50000_S600000x1_S600000_n_0_n_n_0_1_1 dinv (col (wrap d)))

def aggOf128 (h : FVec Ideal S50000x128 .f32) (s d : IVec S600000 32) (nrm : FVec Ideal S600000x1 .f32) : FVec Ideal S50000x128 .f32 :=
  Host.scatterAdd scatter_S50000x128_S600000x1_S600000x128_1_0_0_1
    (broadcastInDim S50000x128 ![] bcast_S_S50000x128 (constant (F := Ideal) S_ .f32 0x00000000#32)) (col d)
    (mulf (Host.gather gather_S50000x128_S600000x1_S600000x128_1_0_n_n_0_1_1128 h (col (wrap s)))
      (broadcastInDim S600000x128 ![0, 1] bcast_S600000x1_S600000x128_0_1 nrm))
def aggOf64 (h : FVec Ideal S50000x64 .f32) (s d : IVec S600000 32) (nrm : FVec Ideal S600000x1 .f32) : FVec Ideal S50000x64 .f32 :=
  Host.scatterAdd scatter_S50000x64_S600000x1_S600000x64_1_0_0_1
    (broadcastInDim S50000x64 ![] bcast_S_S50000x64 (constant (F := Ideal) S_ .f32 0x00000000#32)) (col d)
    (mulf (Host.gather gather_S50000x64_S600000x1_S600000x64_1_0_n_n_0_1_164 h (col (wrap s)))
      (broadcastInDim S600000x64 ![0, 1] bcast_S600000x1_S600000x64_0_1 nrm))

def dsqCol (dinv : FVec Ideal S50000 .f32) : FVec Ideal S50000x1 .f32 :=
  broadcastInDim S50000x1 ![0] bcast_S50000_S50000x1_0 (mulf dinv dinv)
def biasRow128 (b : FVec Ideal S128 .f32) : FVec Ideal S1x128 .f32 := broadcastInDim S1x128 ![1] bcast_S128_S1x128_1 b
def biasRow64 (b : FVec Ideal S64 .f32) : FVec Ideal S1x64 .f32 := broadcastInDim S1x64 ![1] bcast_S64_S1x64_1 b

def dense128 (x : FVec Ideal S50000x128 .f32) (w : FVec Ideal S128x128 .f32) : FVec Ideal S50000x128 .f32 :=
  Host.dotGeneral dot_S50000x128_S128x128_S50000x128_1_0_0_1_n_n none x w
def dense64 (x : FVec Ideal S50000x128 .f32) (w : FVec Ideal S128x64 .f32) : FVec Ideal S50000x64 .f32 :=
  Host.dotGeneral dot_S50000x128_S128x64_S50000x64_1_0_0_1_n_n none x w

def hidden (agg h : FVec Ideal S50000x128 .f32) (dsq : FVec Ideal S50000x1 .f32) (brow : FVec Ideal S1x128 .f32) : FVec Ideal S50000x128 .f32 :=
  maximumf (addf (addf agg (mulf h (broadcastInDim S50000x128 ![0, 1] bcast_S50000x1_S50000x128_0_1 dsq)))
      (broadcastInDim S50000x128 ![0, 1] bcast_S1x128_S50000x128_0_1 brow))
    (broadcastInDim S50000x128 ![] bcast_S_S50000x128 (constant (F := Ideal) S_ .f32 0x00000000#32))

def logits (agg h : FVec Ideal S50000x64 .f32) (dsq : FVec Ideal S50000x1 .f32) (brow : FVec Ideal S1x64 .f32) : FVec Ideal S50000x64 .f32 :=
  addf (addf agg (mulf h (broadcastInDim S50000x64 ![0, 1] bcast_S50000x1_S50000x64_0_1 dsq)))
    (broadcastInDim S50000x64 ![0, 1] bcast_S1x64_S50000x64_0_1 brow)

def rowMaxR (v : FVec Ideal S50000x64 .f32) : FVec Ideal S50000 .f32 :=
  maximumf (broadcastInDim S50000 ![] bcast_S_S50000 (constant (F := Ideal) S_ .f32 0xFF800000#32))
    (Host.reduce FloatOps.maximumf v (constant (F := Ideal) S_ .f32 0xFF800000#32) reducesTo_S50000x64_S50000_d1 h_S_)
def shiftR (v : FVec Ideal S50000x64 .f32) : FVec Ideal S50000x64 .f32 :=
  subf v (broadcastInDim S50000x64 ![0, 1] bcast_S50000x1_S50000x64_0_1 (broadcastInDim S50000x1 ![0] bcast_S50000_S50000x1_0 (rowMaxR v)))
def logSumR (v : FVec Ideal S50000x64 .f32) : FVec Ideal S50000x1 .f32 :=
  Host.log (broadcastInDim S50000x1 ![0] bcast_S50000_S50000x1_0
    (Host.reduceAdd (Host.exp (shiftR v)) (constant (F := Ideal) S_ .f32 0x00000000#32) reducesTo_S50000x64_S50000_d1 h_S_))
def logSoftmax (v : FVec Ideal S50000x64 .f32) : FVec Ideal S50000x64 .f32 :=
  subf (shiftR v) (broadcastInDim S50000x64 ![0, 1] bcast_S50000x1_S50000x64_0_1 (logSumR v))

/-- The network with the degree's index column `idx` given. -/
def networkAt (idx : IVec S600000x1 32) (x0 : FVec Ideal S50000x128 .f32) (ei : IVec S2x600000 32) (w1 : FVec Ideal S128x128 .f32)
    (b1 : FVec Ideal S128 .f32) (w2 : FVec Ideal S128x64 .f32) (b2 : FVec Ideal S64 .f32) : FVec Ideal S50000x64 .f32 :=
  logSoftmax (logits
    (aggOf64 (dense64 (hidden (aggOf128 (dense128 x0 w1) (src ei) (dst ei) (colF (normOf (dinvOf idx) (src ei) (dst ei))))
        (dense128 x0 w1) (dsqCol (dinvOf idx)) (biasRow128 b1)) w2) (src ei) (dst ei) (colF (normOf (dinvOf idx) (src ei) (dst ei))))
    (dense64 (hidden (aggOf128 (dense128 x0 w1) (src ei) (dst ei) (colF (normOf (dinvOf idx) (src ei) (dst ei))))
        (dense128 x0 w1) (dsqCol (dinvOf idx)) (biasRow128 b1)) w2)
    (dsqCol (dinvOf idx)) (biasRow64 b2))

/-- The reference network: the degree counts the edges by their wrapped destinations. -/
def network (x0 : FVec Ideal S50000x128 .f32) (ei : IVec S2x600000 32) (w1 : FVec Ideal S128x128 .f32)
    (b1 : FVec Ideal S128 .f32) (w2 : FVec Ideal S128x64 .f32) (b2 : FVec Ideal S64 .f32) : FVec Ideal S50000x64 .f32 :=
  networkAt (col (wrap (dst ei))) x0 ei w1 b1 w2 b2

end Cert.ReferenceIdeal.Stage

end
-- ==== Proof.RefRead.lean ====
/-
  The reference network's stages read entry by entry.

  At the exact extended reals a host `dot_general` of a `[50000, 128]` array with a weight matrix is
  the plain product; the broadcast column and row in `hidden` and `logits` read `(r, 0)` and
  `(0, c)`; the host's maximum reduction over axis 1, started at the least float and then compared
  with the least float again, is the row's maximum; its sum reduction started at zero is the row's
  sum.  So `hidden` is the rectified combined rows and `logSoftmax ∘ logits` their row-wise
  log-softmax, as `Cert.Gcn` states them.
-/
import proofs.«139748_j62474594288248_1_alg».proof.Proof.RefStages

set_option maxRecDepth 16384

noncomputable section

open scoped BigOperators

namespace Cert.ReferenceIdeal.Stage

open Cert.ReferenceIdeal Cert.ReferenceIdeal.Gen Idealize.ShloMosaic Idealize.ShloMosaic.ValueIdx
open Cert.Gcn Cert.LibLayout

/-- A scalar broadcast holds the scalar everywhere. -/
theorem bcast0_apply {t : Shape} {α : Type} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply _ h x j ix0 (fun a => a.elim0)

/-! ## The dense layers -/

theorem d128_l0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem d128_l1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem d128_r0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem d128_r1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The first dense layer is the plain product. -/
theorem dense128_eq (x : FVec Ideal S50000x128 .f32) (w : FVec Ideal S128x128 .f32) :
    dense128 x w = dense (n := 50000) (k := 128) (d := 128) x w := by
  funext i
  obtain ⟨r, c, rfl⟩ : ∃ (r : Fin 50000) (c : Fin 128), i = ix2 r c := ⟨i 0, i 1, eq_ix2 i⟩
  rw [dense_apply]
  unfold dense128 denseAt
  simp only [Host.dotGeneral]
  exact Cert.LibDense.dotGeneral_apply dot_S50000x128_S128x128_S50000x128_1_0_0_1_n_n rfl rfl d128_l0 d128_l1 d128_r0 d128_r1 none _ x w r c

theorem d64_l0 (i : S50000x64.Idx) (q : dot_S50000x128_S128x64_S50000x64_1_0_0_1_n_n.contr.Idx) :
    (dot_S50000x128_S128x64_S50000x64_1_0_0_1_n_n.lhsIdx i q 0).val = (i 0).val := by
  unfold DotDims.lhsIdx
  rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
  rfl
theorem d64_l1 (i : S50000x64.Idx) (q : dot_S50000x128_S128x64_S50000x64_1_0_0_1_n_n.contr.Idx) :
    (dot_S50000x128_S128x64_S50000x64_1_0_0_1_n_n.lhsIdx i q 1).val = (q ⟨0, by decide⟩).val :=
  dot_S50000x128_S128x64_S50000x64_1_0_0_1_n_n.lhsIdx_val_of_single rfl i q
theorem d64_r0 (i : S50000x64.Idx) (q : dot_S50000x128_S128x64_S50000x64_1_0_0_1_n_n.contr.Idx) :
    (dot_S50000x128_S128x64_S50000x64_1_0_0_1_n_n.rhsIdx i q 0).val = (q ⟨0, by decide⟩).val :=
  dot_S50000x128_S128x64_S50000x64_1_0_0_1_n_n.rhsIdx_val_of_single rfl i q
theorem d64_r1 (i : S50000x64.Idx) (q : dot_S50000x128_S128x64_S50000x64_1_0_0_1_n_n.contr.Idx) :
    (dot_S50000x128_S128x64_S50000x64_1_0_0_1_n_n.rhsIdx i q 1).val = (i 1).val := by
  unfold DotDims.rhsIdx
  rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
  rfl

/-- The second dense layer is the plain product. -/
theorem dense64_eq (x : FVec Ideal S50000x128 .f32) (w : FVec Ideal S128x64 .f32) :
    dense64 x w = dense (n := 50000) (k := 128) (d := 64) x w := by
  funext i
  obtain ⟨r, c, rfl⟩ : ∃ (r : Fin 50000) (c : Fin 64), i = ix2 r c := ⟨i 0, i 1, eq_ix2 i⟩
  rw [dense_apply]
  unfold dense64 denseAt
  simp only [Host.dotGeneral]
  exact Cert.LibDense.dotGeneral_apply dot_S50000x128_S128x64_S50000x64_1_0_0_1_n_n rfl rfl d64_l0 d64_l1 d64_r0 d64_r1 none _ x w r c

/-! ## The combine stages -/

/-- The hidden layer's combine is the rectified combined rows. -/
theorem hidden_eq (agg h : FVec Ideal S50000x128 .f32) (dsq : FVec Ideal S50000x1 .f32) (brow : FVec Ideal S1x128 .f32) :
    hidden agg h dsq brow = reluCombine (n := 50000) (d := 128) agg h dsq brow := by
  funext i
  obtain ⟨r, c, rfl⟩ : ∃ (r : Fin 50000) (c : Fin 128), i = ix2 r c := ⟨i 0, i 1, eq_ix2 i⟩
  rw [reluCombine_apply]
  unfold hidden combineAt zeroF
  simp only [maximumf_apply, addf_apply, mulf_apply, broadcastInDim_a1_ab_apply, broadcastInDim_1b_ab_apply]
  exact congrArg (max _) (bcast0_apply _ _ _)

theorem logits_apply (agg h : FVec Ideal S50000x64 .f32) (dsq : FVec Ideal S50000x1 .f32) (brow : FVec Ideal S1x64 .f32)
    (r : Fin 50000) (c : Fin 64) : logits agg h dsq brow (ix2 r c) = combineAt (n := 50000) (d := 64) agg h dsq brow r c := by
  unfold logits combineAt
  simp only [addf_apply, mulf_apply, broadcastInDim_a1_ab_apply, broadcastInDim_1b_ab_apply]

/-! ## The log-softmax -/

theorem red_lift (hR : S50000x64.Reduces [1] S50000) (r : Fin 50000) (q : Fin 64) : hR.lift (ix1 r) q = ix2 r q := by
  funext a; apply Fin.ext
  match a with
  | ⟨0, _⟩ => rfl
  | ⟨1, _⟩ => rfl

theorem rowMaxR_apply (v : FVec Ideal S50000x64 .f32) (r : Fin 50000) :
    rowMaxR v (ix1 r) = rowMax (fun q : Fin 64 => v (ix2 r q)) := by
  have hR : S50000x64.Reduces [1] S50000 := by decide
  have e2 : Host.reduce FloatOps.maximumf v (constant (F := Ideal) S_ .f32 0xFF800000#32) reducesTo_S50000x64_S50000_d1 h_S_ (ix1 r)
      = rowMax (fun q : Fin 64 => v (ix2 r q)) := by
    refine (Host.reduce_eq_fold_single FloatOps.maximumf v _ reducesTo_S50000x64_S50000_d1 hR h_S_ (ix1 r)).trans ?_
    unfold rowMax leastF
    show (Finset.univ : Finset (Fin 64)).fold max (Ideal.ofBits .f32 0xFF800000#32) (fun q : Fin 64 => v (hR.lift (ix1 r) q)) = _
    refine congrArg (fun f : Fin 64 → EReal => (Finset.univ : Finset (Fin 64)).fold max (Ideal.ofBits .f32 0xFF800000#32) f) (funext fun (q : Fin 64) => ?_)
    exact congrArg v (red_lift hR r q)
  unfold rowMaxR
  rw [maximumf_apply, bcast0_apply, constant_apply, e2]
  exact max_rowMax _

theorem shiftR_apply (v : FVec Ideal S50000x64 .f32) (r : Fin 50000) (c : Fin 64) :
    shiftR v (ix2 r c) = v (ix2 r c) - rowMax (fun q : Fin 64 => v (ix2 r q)) := by
  unfold shiftR
  rw [subf_apply, broadcastInDim_a1_ab_apply, broadcastInDim_a_a1_apply, rowMaxR_apply]

theorem logSumR_apply (v : FVec Ideal S50000x64 .f32) (r : Fin 50000) :
    logSumR v (ix2 r (0 : Fin 1)) = Ideal.log (∑ q : Fin 64, Ideal.exp (v (ix2 r q) - rowMax (fun q' : Fin 64 => v (ix2 r q')))) := by
  unfold logSumR
  show FloatOps.hostUnary .log (broadcastInDim S50000x1 ![0] bcast_S50000_S50000x1_0
    (Host.reduceAdd (Host.exp (shiftR v)) (constant (F := Ideal) S_ .f32 0x00000000#32) reducesTo_S50000x64_S50000_d1 h_S_) (ix2 r (0 : Fin 1))) = _
  rw [Ideal.hostUnary_log_def, broadcastInDim_a_a1_apply]
  refine congrArg Ideal.log ?_
  have hR : S50000x64.Reduces [1] S50000 := by decide
  simp only [Host.reduceAdd, Ideal.hostReduceAdd_def]
  rw [Ideal.hostReduceAdd_single reducesTo_S50000x64_S50000_d1 hR]
  refine (zeroF_add _).trans ?_
  show ∑ q : Fin 64, Host.exp (shiftR v) (hR.lift (ix1 r) q) = _
  refine Finset.sum_congr rfl fun (q : Fin 64) _ => ?_
  refine (congrArg (Host.exp (shiftR v)) (red_lift hR r q)).trans ?_
  show FloatOps.hostUnary .exp (shiftR v (ix2 r q)) = _
  rw [Ideal.hostUnary_exp_def, shiftR_apply]

/-- The output layer: the log-softmax of the combined rows. -/
theorem logSoftmax_logits_eq (agg h : FVec Ideal S50000x64 .f32) (dsq : FVec Ideal S50000x1 .f32) (brow : FVec Ideal S1x64 .f32) :
    logSoftmax (logits agg h dsq brow) = logSoftmaxCombine (n := 50000) (d := 64) agg h dsq brow := by
  funext i
  obtain ⟨r, c, rfl⟩ : ∃ (r : Fin 50000) (c : Fin 64), i = ix2 r c := ⟨i 0, i 1, eq_ix2 i⟩
  rw [logSoftmaxCombine_apply]
  unfold logSoftmax
  rw [subf_apply, shiftR_apply, broadcastInDim_a1_ab_apply, logSumR_apply]
  unfold logSoftmaxAt
  simp only [logits_apply]

end Cert.ReferenceIdeal.Stage

end
-- ==== Proof.Chain.lean ====
/-
  The idealized kernel's result array as the network's stages applied to the arguments.

  The buffer contents at the seven segment boundaries are followed from the launch memory.  The
  first stretch of host operations leaves the edge list's two rows, each node's inverse root degree
  (counting the edges by their destinations as given), its square as a column and the edges'
  factors as a column.  The first dense region leaves the features times the first weights; the
  next stretch the first layer's summed messages and the bias as a row; the first combine region
  the rectified hidden rows; the second dense region their product with the second weights; the
  last stretch the second layer's summed messages and bias row; the last region the row-wise
  log-softmax of the combined rows.  A buffer that a segment neither writes nor stages as an output
  keeps its contents through it.  A length-`n` array reshaped to a column (or a row) is the array
  broadcast to it, which is how the reference spells the same columns and rows.
-/
import proofs.«139748_j62474594288248_1_alg».proof.Proof.Gen.KernelIdeal.Frame
import proofs.«139748_j62474594288248_1_alg».proof.Proof.Dense1
import proofs.«139748_j62474594288248_1_alg».proof.Proof.Dense2
import proofs.«139748_j62474594288248_1_alg».proof.Proof.Combine1
import proofs.«139748_j62474594288248_1_alg».proof.Proof.Combine2
import proofs.«139748_j62474594288248_1_alg».proof.Proof.RefRead
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.ValueIdx
open Idealize.ShloMosaic.StableHlo
open Idealize.ShloMosaic.Pipeline (Dat)
open Cert.Gcn

variable (m : (ℓ : Loc nD τ sig) → Buf (Elt Ideal) ℓ) (ρ : Dev nD → PrngReg)

/-- The argument arrays as launched. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-- Each node's inverse root degree as the kernel's host operations compute it: the edges counted by their destinations as given. -/
abbrev dinvK (c : Dev nD) := Cert.ReferenceIdeal.Stage.dinvOf (Cert.ReferenceIdeal.Stage.col (Cert.ReferenceIdeal.Stage.dst (A1 m c)))
/-- The edges' factors, as a column. -/
abbrev nrmK (c : Dev nD) := Cert.ReferenceIdeal.Stage.colF (Cert.ReferenceIdeal.Stage.normOf (dinvK m c) (Cert.ReferenceIdeal.Stage.src (A1 m c)) (Cert.ReferenceIdeal.Stage.dst (A1 m c)))

/-! ## After the first stretch of host operations -/

set_option maxHeartbeats 4000000 in
theorem W1_arg (c : Dev nD) :
    W1 m ρ c (Proc.devRef .tc main_arg0) = A0 m c ∧ W1 m ρ c (Proc.devRef .tc main_arg2) = A2 m c ∧ W1 m ρ c (Proc.devRef .tc main_arg3) = A3 m c
    ∧ W1 m ρ c (Proc.devRef .tc main_arg4) = A4 m c ∧ W1 m ρ c (Proc.devRef .tc main_arg5) = A5 m c := by
  refine ⟨?_, ?_, ?_, ?_, ?_⟩ <;>
  · show StableHlo.after hostOps0 (W0 m ρ c) _ = _
    after_results_simp <;> rfl

theorem W1_v1 (c : Dev nD) : W1 m ρ c (Proc.devRef .tc main_v1) = Cert.ReferenceIdeal.Stage.src (A1 m c) := by
  show StableHlo.after hostOps0 (W0 m ρ c) (Proc.devRef .tc main_v1) = _
  after_results_simp <;> rfl

theorem W1_v3 (c : Dev nD) : W1 m ρ c (Proc.devRef .tc main_v3) = Cert.ReferenceIdeal.Stage.dst (A1 m c) := by
  show StableHlo.after hostOps0 (W0 m ρ c) (Proc.devRef .tc main_v3) = _
  after_results_simp <;> rfl

set_option maxHeartbeats 4000000 in
theorem W1_v12 (c : Dev nD) : W1 m ρ c (Proc.devRef .tc main_v12) = Cert.ReferenceIdeal.Stage.dsqCol (dinvK m c) := by
  show StableHlo.after hostOps0 (W0 m ρ c) (Proc.devRef .tc main_v12) = _
  after_results_simp
  refine Eq.trans ?_ (Cert.LibLayout.shapeCast_eq_broadcastInDim_col (a := 50000) (mulf (dinvK m c) (dinvK m c))
    Cert.KernelIdeal.Gen.shapeCasts_S50000_S50000x1 Cert.ReferenceIdeal.Gen.bcast_S50000_S50000x1_0)
  rfl

set_option maxHeartbeats 4000000 in
theorem W1_v28 (c : Dev nD) : W1 m ρ c (Proc.devRef .tc main_v28) = nrmK m c := by
  show StableHlo.after hostOps0 (W0 m ρ c) (Proc.devRef .tc main_v28) = _
  after_results_simp
  refine Eq.trans ?_ (Cert.LibLayout.shapeCast_eq_broadcastInDim_col (a := 600000)
    (Cert.ReferenceIdeal.Stage.normOf (dinvK m c) (Cert.ReferenceIdeal.Stage.src (A1 m c)) (Cert.ReferenceIdeal.Stage.dst (A1 m c)))
    Cert.KernelIdeal.Gen.shapeCasts_S600000_S600000x1 Cert.ReferenceIdeal.Gen.bcast_S600000_S600000x1_0)
  rfl

/-! ## After the first dense region -/

theorem W2_v29 (c : Dev nD) : W2 m ρ c (Proc.devRef .tc main_v29) = Cert.ReferenceIdeal.Stage.dense128 (A0 m c) (A2 m c) := by
  rw [Cert.ReferenceIdeal.Stage.dense128_eq]
  have h := (W2_arr m ρ c 2).trans (Cert.KernelIdeal.Dense1.final (V1 m ρ) c)
  rw [show V1 m ρ c main_arg0 = A0 m c from (W1_arg m ρ c).1, show V1 m ρ c main_arg2 = A2 m c from (W1_arg m ρ c).2.1] at h
  exact h

theorem W2_keep (c : Dev nD) :
    W2 m ρ c (Proc.devRef .tc main_v1) = Cert.ReferenceIdeal.Stage.src (A1 m c) ∧ W2 m ρ c (Proc.devRef .tc main_v3) = Cert.ReferenceIdeal.Stage.dst (A1 m c)
    ∧ W2 m ρ c (Proc.devRef .tc main_v12) = Cert.ReferenceIdeal.Stage.dsqCol (dinvK m c) ∧ W2 m ρ c (Proc.devRef .tc main_v28) = nrmK m c
    ∧ W2 m ρ c (Proc.devRef .tc main_arg3) = A3 m c ∧ W2 m ρ c (Proc.devRef .tc main_arg4) = A4 m c ∧ W2 m ρ c (Proc.devRef .tc main_arg5) = A5 m c :=
  ⟨(W2_of_ne m ρ c main_v1 (by decide)).trans (W1_v1 m ρ c), (W2_of_ne m ρ c main_v3 (by decide)).trans (W1_v3 m ρ c),
   (W2_of_ne m ρ c main_v12 (by decide)).trans (W1_v12 m ρ c), (W2_of_ne m ρ c main_v28 (by decide)).trans (W1_v28 m ρ c),
   (W2_of_ne m ρ c main_arg3 (by decide)).trans (W1_arg m ρ c).2.2.1, (W2_of_ne m ρ c main_arg4 (by decide)).trans (W1_arg m ρ c).2.2.2.1,
   (W2_of_ne m ρ c main_arg5 (by decide)).trans (W1_arg m ρ c).2.2.2.2⟩

/-! ## After the second stretch of host operations -/

/-- The hidden layer's dense product. -/
abbrev h1K (c : Dev nD) := Cert.ReferenceIdeal.Stage.dense128 (A0 m c) (A2 m c)

set_option maxHeartbeats 4000000 in
theorem W3_v41 (c : Dev nD) : W3 m ρ c (Proc.devRef .tc main_v41)
    = Cert.ReferenceIdeal.Stage.aggOf128 (h1K m c) (Cert.ReferenceIdeal.Stage.src (A1 m c)) (Cert.ReferenceIdeal.Stage.dst (A1 m c)) (nrmK m c) := by
  have e : W3 m ρ c (Proc.devRef .tc main_v41) = Cert.ReferenceIdeal.Stage.aggOf128 (W2 m ρ c (Proc.devRef .tc main_v29)) (W2 m ρ c (Proc.devRef .tc main_v1))
      (W2 m ρ c (Proc.devRef .tc main_v3)) (W2 m ρ c (Proc.devRef .tc main_v28)) := by
    show StableHlo.after hostOps1 (W2 m ρ c) (Proc.devRef .tc main_v41) = _
    after_results_simp <;> rfl
  rw [e, W2_v29, (W2_keep m ρ c).1, (W2_keep m ρ c).2.1, (W2_keep m ρ c).2.2.2.1]

set_option maxHeartbeats 4000000 in
theorem W3_v42 (c : Dev nD) : W3 m ρ c (Proc.devRef .tc main_v42) = Cert.ReferenceIdeal.Stage.biasRow128 (A3 m c) := by
  have e : W3 m ρ c (Proc.devRef .tc main_v42) = shapeCast Cert.KernelIdeal.S1x128 (W2 m ρ c (Proc.devRef .tc main_arg3)) Cert.KernelIdeal.Gen.shapeCasts_S128_S1x128 := by
    show StableHlo.after hostOps1 (W2 m ρ c) (Proc.devRef .tc main_v42) = _
    after_results_simp <;> rfl
  rw [e, (W2_keep m ρ c).2.2.2.2.1]
  exact Cert.LibLayout.shapeCast_eq_broadcastInDim_row (a := 128) (A3 m c) _ Cert.ReferenceIdeal.Gen.bcast_S128_S1x128_1

theorem W3_keep (c : Dev nD) :
    W3 m ρ c (Proc.devRef .tc main_v29) = h1K m c ∧ W3 m ρ c (Proc.devRef .tc main_v12) = Cert.ReferenceIdeal.Stage.dsqCol (dinvK m c)
    ∧ W3 m ρ c (Proc.devRef .tc main_v1) = Cert.ReferenceIdeal.Stage.src (A1 m c) ∧ W3 m ρ c (Proc.devRef .tc main_v3) = Cert.ReferenceIdeal.Stage.dst (A1 m c)
    ∧ W3 m ρ c (Proc.devRef .tc main_v28) = nrmK m c ∧ W3 m ρ c (Proc.devRef .tc main_arg4) = A4 m c ∧ W3 m ρ c (Proc.devRef .tc main_arg5) = A5 m c :=
  ⟨(StableHlo.after_of_forall_not_mem (b := Proc.devRef .tc main_v29) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_v29 m ρ c),
   (StableHlo.after_of_forall_not_mem (b := Proc.devRef .tc main_v12) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).2.2.1,
   (StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).1,
   (StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).2.1,
   (StableHlo.after_of_forall_not_mem (b := Proc.devRef .tc main_v28) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).2.2.2.1,
   (StableHlo.after_of_forall_not_mem (b := Proc.devRef .tc main_arg4) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).2.2.2.2.2.1,
   (StableHlo.after_of_forall_not_mem (b := Proc.devRef .tc main_arg5) _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_keep m ρ c).2.2.2.2.2.2⟩

/-! ## After the first combine region -/

/-- The first layer's summed messages. -/
abbrev agg1K (c : Dev nD) := Cert.ReferenceIdeal.Stage.aggOf128 (h1K m c) (Cert.ReferenceIdeal.Stage.src (A1 m c)) (Cert.ReferenceIdeal.Stage.dst (A1 m c)) (nrmK m c)
/-- The rectified hidden rows. -/
abbrev a1K (c : Dev nD) := Cert.ReferenceIdeal.Stage.hidden (agg1K m c) (h1K m c) (Cert.ReferenceIdeal.Stage.dsqCol (dinvK m c)) (Cert.ReferenceIdeal.Stage.biasRow128 (A3 m c))

theorem W4_v43 (c : Dev nD) : W4 m ρ c (Proc.devRef .tc main_v43) = a1K m c := by
  have h := (W4_arr m ρ c 4).trans (Cert.KernelIdeal.Combine1.final (V3 m ρ) c)
  rw [show V3 m ρ c main_v41 = agg1K m c from W3_v41 m ρ c, show V3 m ρ c main_v29 = h1K m c from (W3_keep m ρ c).1,
    show V3 m ρ c main_v12 = Cert.ReferenceIdeal.Stage.dsqCol (dinvK m c) from (W3_keep m ρ c).2.1,
    show V3 m ρ c main_v42 = Cert.ReferenceIdeal.Stage.biasRow128 (A3 m c) from W3_v42 m ρ c] at h
  exact h.trans (Cert.ReferenceIdeal.Stage.hidden_eq _ _ _ _).symm

theorem W4_keep (c : Dev nD) :
    W4 m ρ c (Proc.devRef .tc main_v1) = Cert.ReferenceIdeal.Stage.src (A1 m c) ∧ W4 m ρ c (Proc.devRef .tc main_v3) = Cert.ReferenceIdeal.Stage.dst (A1 m c)
    ∧ W4 m ρ c (Proc.devRef .tc main_v28) = nrmK m c ∧ W4 m ρ c (Proc.devRef .tc main_arg4) = A4 m c ∧ W4 m ρ c (Proc.devRef .tc main_arg5) = A5 m c
    ∧ W4 m ρ c (Proc.devRef .tc main_v12) = Cert.ReferenceIdeal.Stage.dsqCol (dinvK m c) :=
  ⟨(W4_of_ne m ρ c main_v1 (by decide)).trans (W3_keep m ρ c).2.2.1, (W4_of_ne m ρ c main_v3 (by decide)).trans (W3_keep m ρ c).2.2.2.1,
   (W4_of_ne m ρ c main_v28 (by decide)).trans (W3_keep m ρ c).2.2.2.2.1, (W4_of_ne m ρ c main_arg4 (by decide)).trans (W3_keep m ρ c).2.2.2.2.2.1,
   (W4_of_ne m ρ c main_arg5 (by decide)).trans (W3_keep m ρ c).2.2.2.2.2.2,
   ((W4_arr m ρ c 2).trans (((dat1 (V3 m ρ) c).arrAt_in 2 rfl _).trans (A_eq1 (V3 m ρ) c 2))).trans (W3_keep m ρ c).2.1⟩

/-! ## After the second dense region -/

/-- The output layer's dense product. -/
abbrev h2K (c : Dev nD) := Cert.ReferenceIdeal.Stage.dense64 (a1K m c) (A4 m c)

theorem W5_v44 (c : Dev nD) : W5 m ρ c (Proc.devRef .tc main_v44) = h2K m c := by
  have h := (W5_arr m ρ c 2).trans (Cert.KernelIdeal.Dense2.final (V4 m ρ) c)
  rw [show V4 m ρ c main_v43 = a1K m c from W4_v43 m ρ c, show V4 m ρ c main_arg4 = A4 m c from (W4_keep m ρ c).2.2.2.1] at h
  exact h.trans (Cert.ReferenceIdeal.Stage.dense64_eq _ _).symm

theorem W5_keep (c : Dev nD) :
    W5 m ρ c (Proc.devRef .tc main_v1) = Cert.ReferenceIdeal.Stage.src (A1 m c) ∧ W5 m ρ c (Proc.devRef .tc main_v3) = Cert.ReferenceIdeal.Stage.dst (A1 m c)
    ∧ W5 m ρ c (Proc.devRef .tc main_v28) = nrmK m c ∧ W5 m ρ c (Proc.devRef .tc main_arg5) = A5 m c
    ∧ W5 m ρ c (Proc.devRef .tc main_v12) = Cert.ReferenceIdeal.Stage.dsqCol (dinvK m c) :=
  ⟨(W5_of_ne m ρ c main_v1 (by decide)).trans (W4_keep m ρ c).1, (W5_of_ne m ρ c main_v3 (by decide)).trans (W4_keep m ρ c).2.1,
   (W5_of_ne m ρ c main_v28 (by decide)).trans (W4_keep m ρ c).2.2.1, (W5_of_ne m ρ c main_arg5 (by decide)).trans (W4_keep m ρ c).2.2.2.2.1,
   (W5_of_ne m ρ c main_v12 (by decide)).trans (W4_keep m ρ c).2.2.2.2.2⟩

/-! ## After the last stretch of host operations -/

set_option maxHeartbeats 4000000 in
theorem W6_v56 (c : Dev nD) : W6 m ρ c (Proc.devRef .tc main_v56)
    = Cert.ReferenceIdeal.Stage.aggOf64 (h2K m c) (Cert.ReferenceIdeal.Stage.src (A1 m c)) (Cert.ReferenceIdeal.Stage.dst (A1 m c)) (nrmK m c) := by
  have e : W6 m ρ c (Proc.devRef .tc main_v56) = Cert.ReferenceIdeal.Stage.aggOf64 (W5 m ρ c (Proc.devRef .tc main_v44)) (W5 m ρ c (Proc.devRef .tc main_v1))
      (W5 m ρ c (Proc.devRef .tc main_v3)) (W5 m ρ c (Proc.devRef .tc main_v28)) := by
    show StableHlo.after hostOps3 (W5 m ρ c) (Proc.devRef .tc main_v56) = _
    after_results_simp <;> rfl
  rw [e, W5_v44, (W5_keep m ρ c).1, (W5_keep m ρ c).2.1, (W5_keep m ρ c).2.2.1]

set_option maxHeartbeats 4000000 in
theorem W6_v57 (c : Dev nD) : W6 m ρ c (Proc.devRef .tc main_v57) = Cert.ReferenceIdeal.Stage.biasRow64 (A5 m c) := by
  have e : W6 m ρ c (Proc.devRef .tc main_v57) = shapeCast Cert.KernelIdeal.S1x64 (W5 m ρ c (Proc.devRef .tc main_arg5)) Cert.KernelIdeal.Gen.shapeCasts_S64_S1x64 := by
    show StableHlo.after hostOps3 (W5 m ρ c) (Proc.devRef .tc main_v57) = _
    after_results_simp <;> rfl
  rw [e, (W5_keep m ρ c).2.2.2.1]
  exact Cert.LibLayout.shapeCast_eq_broadcastInDim_row (a := 64) (A5 m c) _ Cert.ReferenceIdeal.Gen.bcast_S64_S1x64_1

theorem W6_keep (c : Dev nD) :
    W6 m ρ c (Proc.devRef .tc main_v44) = h2K m c ∧ W6 m ρ c (Proc.devRef .tc main_v12) = Cert.ReferenceIdeal.Stage.dsqCol (dinvK m c) :=
  ⟨(StableHlo.after_of_forall_not_mem (b := Proc.devRef .tc main_v44) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W5_v44 m ρ c),
   (StableHlo.after_of_forall_not_mem (b := Proc.devRef .tc main_v12) _ _ (List.forall_iff_forall_mem.mp (by
      simp only [hostOps3, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W5_keep m ρ c).2.2.2.2⟩

/-! ## After the last region -/

/-- The result array the run ends with: the network with the edges counted by their destinations as given. -/
theorem W7_v58 (c : Dev nD) : W7 m ρ c (Proc.devRef .tc main_v58)
    = Cert.ReferenceIdeal.Stage.networkAt (Cert.ReferenceIdeal.Stage.col (Cert.ReferenceIdeal.Stage.dst (A1 m c))) (A0 m c) (A1 m c) (A2 m c) (A3 m c) (A4 m c) (A5 m c) := by
  have h := (W7_arr m ρ c 4).trans (Cert.KernelIdeal.Combine2.final (V6 m ρ) c)
  rw [show V6 m ρ c main_v56 = Cert.ReferenceIdeal.Stage.aggOf64 (h2K m c) (Cert.ReferenceIdeal.Stage.src (A1 m c)) (Cert.ReferenceIdeal.Stage.dst (A1 m c)) (nrmK m c) from W6_v56 m ρ c,
    show V6 m ρ c main_v44 = h2K m c from (W6_keep m ρ c).1,
    show V6 m ρ c main_v12 = Cert.ReferenceIdeal.Stage.dsqCol (dinvK m c) from (W6_keep m ρ c).2,
    show V6 m ρ c main_v57 = Cert.ReferenceIdeal.Stage.biasRow64 (A5 m c) from W6_v57 m ρ c] at h
  exact h.trans (Cert.ReferenceIdeal.Stage.logSoftmax_logits_eq _ _ _ _).symm

end Cert.KernelIdeal.Chain

end
-- ==== Proof.RefRun.lean ====
/-
  The reference program's run, in five stages.

  @main is a straight line of 144 host operations.  Run from contents `V`, the first 41 leave the
  edge list's two rows, the first dense product, each node's inverse root degree (the edges counted
  by their wrapped destinations) and the edges' factors; the next 28 the second dense product of the
  rectified hidden rows; the next 36 recompute the degree factors from the same two rows; the next 24 leave the output
  layer's combined rows and the last 15 (read in three short steps) their row-wise log-softmax.  Each stage's results are the stage
  functions of `Cert.ReferenceIdeal.Stage` applied to what the stage before left, so the whole line
  leaves `Stage.network` of the six arguments in the result buffer, and the arguments untouched.
-/
import proofs.«139748_j62474594288248_1_alg».proof.Proof.RefOps
import proofs.«139748_j62474594288248_1_alg».proof.Proof.RefStages

set_option maxRecDepth 16384

noncomputable section

namespace Cert.ReferenceIdeal.Staged

open Cert.ReferenceIdeal Cert.ReferenceIdeal.Gen Idealize.ShloMosaic Idealize.ShloMosaic.TcCoe Idealize.SL.Sem Idealize.ShloMosaic.StableHlo
open Cert.ReferenceIdeal.Value

variable {F : FTy → Type} [FloatOps F]

/-- The first 41 operations: the edge rows, the first dense product, the degree factors. -/
abbrev opsA : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S600000 ![] bcast_S_S600000 : (⟨S_, .i32⟩ : BufTy).Contents (Elt F) → (⟨S600000, .i32⟩ : BufTy).Contents (Elt F)),
    binary main_v3 main_v6 main_v7 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v8 (broadcastInDim S600000 ![] bcast_S_S600000 : (⟨S_, .i32⟩ : BufTy).Contents (Elt F) → (⟨S600000, .i32⟩ : BufTy).Contents (Elt F)),
    binary main_v3 main_v8 main_v9 (addi : (⟨S600000, .i32⟩ : BufTy).Contents (Elt F) → (⟨S600000, .i32⟩ : BufTy).Contents (Elt F) → (⟨S600000, .i32⟩ : BufTy).Contents (Elt F)),
    ternary main_v7 main_v9 main_v3 main_v10 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v10 main_v11 (broadcastInDim S600000x1 ![0] bcast_S600000_S600000x1_0 : (⟨S600000, .i32⟩ : BufTy).Contents (Elt F) → (⟨S600000x1, .i32⟩ : BufTy).Contents (Elt F)),
    nullary main_cst_1 (constant S_ .f32 0x3F800000#32),
    unary main_cst_1 main_v12 (broadcastInDim S600000 ![] bcast_S_S600000 : (⟨S_, .f32⟩ : BufTy).Contents (Elt F) → (⟨S600000, .f32⟩ : BufTy).Contents (Elt F)),
    ternary main_v5 main_v11 main_v12 main_v13 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S600000 ![] bcast_S_S600000 : (⟨S_, .i32⟩ : BufTy).Contents (Elt F) → (⟨S600000, .i32⟩ : BufTy).Contents (Elt F)),
    binary main_v1 main_v17 main_v18 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v19 (broadcastInDim S600000 ![] bcast_S_S600000 : (⟨S_, .i32⟩ : BufTy).Contents (Elt F) → (⟨S600000, .i32⟩ : BufTy).Contents (Elt F)),
    binary main_v1 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_v1 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v16 main_v22 main_v23 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_5 (constantI S_ 32 0#32),
    unary main_c_5 main_v24 (broadcastInDim S600000 ![] bcast_S_S600000 : (⟨S_, .i32⟩ : BufTy).Contents (Elt F) → (⟨S600000, .i32⟩ : BufTy).Contents (Elt F)),
    binary main_v3 main_v24 main_v25 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v26 (broadcastInDim S600000 ![] bcast_S_S600000 : (⟨S_, .i32⟩ : BufTy).Contents (Elt F) → (⟨S600000, .i32⟩ : BufTy).Contents (Elt F)),
    binary main_v3 main_v26 main_v27 (addi : (⟨S600000, .i32⟩ : BufTy).Contents (Elt F) → (⟨S600000, .i32⟩ : BufTy).Contents (Elt F) → (⟨S600000, .i32⟩ : BufTy).Contents (Elt F)),
    ternary main_v25 main_v27 main_v3 main_v28 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v28 main_v29 (broadcastInDim S600000x1 ![0] bcast_S600000_S600000x1_0 : (⟨S600000, .i32⟩ : BufTy).Contents (Elt F) → (⟨S600000x1, .i32⟩ : BufTy).Contents (Elt F)),
    binary main_v16 main_v29 main_v30 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v23 main_v30 main_v31 (mulf : (⟨S600000, .f32⟩ : BufTy).Contents (Elt F) → (⟨S600000, .f32⟩ : BufTy).Contents (Elt F) → (⟨S600000, .f32⟩ : BufTy).Contents (Elt F)) ]

/-- The next 28: the first layer's messages and combine, the second dense product. -/
abbrev opsB : List (HloOp τ sig (Elt F)) :=
  [ nullary main_c_7 (constantI S_ 32 0#32),
    unary main_c_7 main_v32 (broadcastInDim S600000 ![] bcast_S_S600000 : (⟨S_, .i32⟩ : BufTy).Contents (Elt F) → (⟨S600000, .i32⟩ : BufTy).Contents (Elt F)),
    binary main_v1 main_v32 main_v33 (cmpi .slt : (⟨S600000, .i32⟩ : BufTy).Contents (Elt F) → (⟨S600000, .i32⟩ : BufTy).Contents (Elt F) → (⟨S600000, .i1⟩ : BufTy).Contents (Elt F)),
    nullary main_c_8 (constantI S_ 32 50000#32),
    unary main_c_8 main_v34 (broadcastInDim S600000 ![] bcast_S_S600000 : (⟨S_, .i32⟩ : BufTy).Contents (Elt F) → (⟨S600000, .i32⟩ : BufTy).Contents (Elt F)),
    binary main_v1 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v1 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v4 main_v37 main_v38 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_v31 main_v39 (broadcastInDim S600000x1 ![0] bcast_S600000_S600000x1_0 : (⟨S600000, .f32⟩ : BufTy).Contents (Elt F) → (⟨S600000x1, .f32⟩ : BufTy).Contents (Elt F)),
    unary main_v39 main_v40 (broadcastInDim S600000x128 ![0, 1] bcast_S600000x1_S600000x128_0_1 : (⟨S600000x1, .f32⟩ : BufTy).Contents (Elt F) → (⟨S600000x128, .f32⟩ : BufTy).Contents (Elt F)),
    binary main_v38 main_v40 main_v41 (mulf : (⟨S600000x128, .f32⟩ : BufTy).Contents (Elt F) → (⟨S600000x128, .f32⟩ : BufTy).Contents (Elt F) → (⟨S600000x128, .f32⟩ : BufTy).Contents (Elt F)),
    nullary main_cst_9 (constant S_ .f32 0x00000000#32),
    unary main_cst_9 main_v42 (broadcastInDim S50000x128 ![] bcast_S_S50000x128 : (⟨S_, .f32⟩ : BufTy).Contents (Elt F) → (⟨S50000x128, .f32⟩ : BufTy).Contents (Elt F)),
    unary main_v3 main_v43 (broadcastInDim S600000x1 ![0] bcast_S600000_S600000x1_0 : (⟨S600000, .i32⟩ : BufTy).Contents (Elt F) → (⟨S600000x1, .i32⟩ : BufTy).Contents (Elt F)),
    ternary main_v42 main_v43 main_v41 main_v44 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v16 main_v16 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v4 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v52) (TRef.of (T := ⟨S50000x128, .f32⟩) main_call0_v0) (TRef.of (T := ⟨S50000x128, .f32⟩) main_v53) maximumf,
    binary main_v53 main_arg4 main_v54 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ]

/-- The next 36: the degree factors again, from the same two rows. -/
abbrev opsC : List (HloOp τ sig (Elt F)) :=
  [ nullary main_cst_10 (constant S_ .f32 0x00000000#32),
    unary main_cst_10 main_v55 (broadcastInDim S50000 ![] bcast_S_S50000 : (⟨S_, .f32⟩ : BufTy).Contents (Elt F) → (⟨S50000, .f32⟩ : BufTy).Contents (Elt F)),
    nullary main_c_11 (constantI S_ 32 0#32),
    unary main_c_11 main_v56 (broadcastInDim S600000 ![] bcast_S_S600000 : (⟨S_, .i32⟩ : BufTy).Contents (Elt F) → (⟨S600000, .i32⟩ : BufTy).Contents (Elt F)),
    binary main_v3 main_v56 main_v57 (cmpi .slt : (⟨S600000, .i32⟩ : BufTy).Contents (Elt F) → (⟨S600000, .i32⟩ : BufTy).Contents (Elt F) → (⟨S600000, .i1⟩ : BufTy).Contents (Elt F)),
    nullary main_c_12 (constantI S_ 32 50000#32),
    unary main_c_12 main_v58 (broadcastInDim S600000 ![] bcast_S_S600000 : (⟨S_, .i32⟩ : BufTy).Contents (Elt F) → (⟨S600000, .i32⟩ : BufTy).Contents (Elt F)),
    binary main_v3 main_v58 main_v59 (addi : (⟨S600000, .i32⟩ : BufTy).Contents (Elt F) → (⟨S600000, .i32⟩ : BufTy).Contents (Elt F) → (⟨S600000, .i32⟩ : BufTy).Contents (Elt F)),
    ternary main_v57 main_v59 main_v3 main_v60 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v60 main_v61 (broadcastInDim S600000x1 ![0] bcast_S600000_S600000x1_0 : (⟨S600000, .i32⟩ : BufTy).Contents (Elt F) → (⟨S600000x1, .i32⟩ : BufTy).Contents (Elt F)),
    nullary main_cst_13 (constant S_ .f32 0x3F800000#32),
    unary main_cst_13 main_v62 (broadcastInDim S600000 ![] bcast_S_S600000 : (⟨S_, .f32⟩ : BufTy).Contents (Elt F) → (⟨S600000, .f32⟩ : BufTy).Contents (Elt F)),
    ternary main_v55 main_v61 main_v62 main_v63 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    nullary main_cst_14 (constant S_ .f32 0x3F800000#32),
    unary main_cst_14 main_v64 (broadcastInDim S50000 ![] bcast_S_S50000 : (⟨S_, .f32⟩ : BufTy).Contents (Elt F) → (⟨S50000, .f32⟩ : BufTy).Contents (Elt F)),
    binary main_v63 main_v64 main_v65 (addf : (⟨S50000, .f32⟩ : BufTy).Contents (Elt F) → (⟨S50000, .f32⟩ : BufTy).Contents (Elt F) → (⟨S50000, .f32⟩ : BufTy).Contents (Elt F)),
    unary main_v65 main_v66 (Host.rsqrt : (⟨S50000, .f32⟩ : BufTy).Contents (Elt F) → (⟨S50000, .f32⟩ : BufTy).Contents (Elt F)),
    nullary main_c_15 (constantI S_ 32 0#32),
    unary main_c_15 main_v67 (broadcastInDim S600000 ![] bcast_S_S600000 : (⟨S_, .i32⟩ : BufTy).Contents (Elt F) → (⟨S600000, .i32⟩ : BufTy).Contents (Elt F)),
    binary main_v1 main_v67 main_v68 (cmpi .slt : (⟨S600000, .i32⟩ : BufTy).Contents (Elt F) → (⟨S600000, .i32⟩ : BufTy).Contents (Elt F) → (⟨S600000, .i1⟩ : BufTy).Contents (Elt F)),
    nullary main_c_16 (constantI S_ 32 50000#32),
    unary main_c_16 main_v69 (broadcastInDim S600000 ![] bcast_S_S600000 : (⟨S_, .i32⟩ : BufTy).Contents (Elt F) → (⟨S600000, .i32⟩ : BufTy).Contents (Elt F)),
    binary main_v1 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v1 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v66 main_v72 main_v73 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    nullary main_c_17 (constantI S_ 32 0#32),
    unary main_c_17 main_v74 (broadcastInDim S600000 ![] bcast_S_S600000 : (⟨S_, .i32⟩ : BufTy).Contents (Elt F) → (⟨S600000, .i32⟩ : BufTy).Contents (Elt F)),
    binary main_v3 main_v74 main_v75 (cmpi .slt : (⟨S600000, .i32⟩ : BufTy).Contents (Elt F) → (⟨S600000, .i32⟩ : BufTy).Contents (Elt F) → (⟨S600000, .i1⟩ : BufTy).Contents (Elt F)),
    nullary main_c_18 (constantI S_ 32 50000#32),
    unary main_c_18 main_v76 (broadcastInDim S600000 ![] bcast_S_S600000 : (⟨S_, .i32⟩ : BufTy).Contents (Elt F) → (⟨S600000, .i32⟩ : BufTy).Contents (Elt F)),
    binary main_v3 main_v76 main_v77 (addi : (⟨S600000, .i32⟩ : BufTy).Contents (Elt F) → (⟨S600000, .i32⟩ : BufTy).Contents (Elt F) → (⟨S600000, .i32⟩ : BufTy).Contents (Elt F)),
    ternary main_v75 main_v77 main_v3 main_v78 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v78 main_v79 (broadcastInDim S600000x1 ![0] bcast_S600000_S600000x1_0 : (⟨S600000, .i32⟩ : BufTy).Contents (Elt F) → (⟨S600000x1, .i32⟩ : BufTy).Contents (Elt F)),
    binary main_v66 main_v79 main_v80 ((fun x i => Host.gather gather_S50000_S600000x1_S600000_n_0_n_n_0_1_1 x i) : (⟨S50000, .f32⟩ : BufTy).Contents (Elt F) → (⟨S600000x1, .i32⟩ : BufTy).Contents (Elt F) → (⟨S600000, .f32⟩ : BufTy).Contents (Elt F)),
    binary main_v73 main_v80 main_v81 (mulf : (⟨S600000, .f32⟩ : BufTy).Contents (Elt F) → (⟨S600000, .f32⟩ : BufTy).Contents (Elt F) → (⟨S600000, .f32⟩ : BufTy).Contents (Elt F)) ]

/-- The next 24: the second layer's messages and combine. -/
abbrev opsD : List (HloOp τ sig (Elt F)) :=
  [ nullary main_c_19 (constantI S_ 32 0#32),
    unary main_c_19 main_v82 (broadcastInDim S600000 ![] bcast_S_S600000 : (⟨S_, .i32⟩ : BufTy).Contents (Elt F) → (⟨S600000, .i32⟩ : BufTy).Contents (Elt F)),
    binary main_v1 main_v82 main_v83 (cmpi .slt : (⟨S600000, .i32⟩ : BufTy).Contents (Elt F) → (⟨S600000, .i32⟩ : BufTy).Contents (Elt F) → (⟨S600000, .i1⟩ : BufTy).Contents (Elt F)),
    nullary main_c_20 (constantI S_ 32 50000#32),
    unary main_c_20 main_v84 (broadcastInDim S600000 ![] bcast_S_S600000 : (⟨S_, .i32⟩ : BufTy).Contents (Elt F) → (⟨S600000, .i32⟩ : BufTy).Contents (Elt F)),
    binary main_v1 main_v84 main_v85 (addi : (⟨S600000, .i32⟩ : BufTy).Contents (Elt F) → (⟨S600000, .i32⟩ : BufTy).Contents (Elt F) → (⟨S600000, .i32⟩ : BufTy).Contents (Elt F)),
    ternary main_v83 main_v85 main_v1 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v86 main_v87 (broadcastInDim S600000x1 ![0] bcast_S600000_S600000x1_0 : (⟨S600000, .i32⟩ : BufTy).Contents (Elt F) → (⟨S600000x1, .i32⟩ : BufTy).Contents (Elt F)),
    binary main_v54 main_v87 main_v88 ((fun x i => Host.gather gather_S50000x64_S600000x1_S600000x64_1_0_n_n_0_1_164 x i) : (⟨S50000x64, .f32⟩ : BufTy).Contents (Elt F) → (⟨S600000x1, .i32⟩ : BufTy).Contents (Elt F) → (⟨S600000x64, .f32⟩ : BufTy).Contents (Elt F)),
    unary main_v81 main_v89 (broadcastInDim S600000x1 ![0] bcast_S600000_S600000x1_0 : (⟨S600000, .f32⟩ : BufTy).Contents (Elt F) → (⟨S600000x1, .f32⟩ : BufTy).Contents (Elt F)),
    unary main_v89 main_v90 (broadcastInDim S600000x64 ![0, 1] bcast_S600000x1_S600000x64_0_1 : (⟨S600000x1, .f32⟩ : BufTy).Contents (Elt F) → (⟨S600000x64, .f32⟩ : BufTy).Contents (Elt F)),
    binary main_v88 main_v90 main_v91 (mulf : (⟨S600000x64, .f32⟩ : BufTy).Contents (Elt F) → (⟨S600000x64, .f32⟩ : BufTy).Contents (Elt F) → (⟨S600000x64, .f32⟩ : BufTy).Contents (Elt F)),
    nullary main_cst_21 (constant S_ .f32 0x00000000#32),
    unary main_cst_21 main_v92 (broadcastInDim S50000x64 ![] bcast_S_S50000x64 : (⟨S_, .f32⟩ : BufTy).Contents (Elt F) → (⟨S50000x64, .f32⟩ : BufTy).Contents (Elt F)),
    unary main_v3 main_v93 (broadcastInDim S600000x1 ![0] bcast_S600000_S600000x1_0 : (⟨S600000, .i32⟩ : BufTy).Contents (Elt F) → (⟨S600000x1, .i32⟩ : BufTy).Contents (Elt F)),
    ternary main_v92 main_v93 main_v91 main_v94 ((fun x i u => Host.scatterAdd scatter_S50000x64_S600000x1_S600000x64_1_0_0_1 x i u) : (⟨S50000x64, .f32⟩ : BufTy).Contents (Elt F) → (⟨S600000x1, .i32⟩ : BufTy).Contents (Elt F) → (⟨S600000x64, .f32⟩ : BufTy).Contents (Elt F) → (⟨S50000x64, .f32⟩ : BufTy).Contents (Elt F)),
    binary main_v66 main_v66 main_v95 (mulf : (⟨S50000, .f32⟩ : BufTy).Contents (Elt F) → (⟨S50000, .f32⟩ : BufTy).Contents (Elt F) → (⟨S50000, .f32⟩ : BufTy).Contents (Elt F)),
    unary main_v95 main_v96 (broadcastInDim S50000x1 ![0] bcast_S50000_S50000x1_0 : (⟨S50000, .f32⟩ : BufTy).Contents (Elt F) → (⟨S50000x1, .f32⟩ : BufTy).Contents (Elt F)),
    unary main_v96 main_v97 (broadcastInDim S50000x64 ![0, 1] bcast_S50000x1_S50000x64_0_1 : (⟨S50000x1, .f32⟩ : BufTy).Contents (Elt F) → (⟨S50000x64, .f32⟩ : BufTy).Contents (Elt F)),
    binary main_v54 main_v97 main_v98 (mulf : (⟨S50000x64, .f32⟩ : BufTy).Contents (Elt F) → (⟨S50000x64, .f32⟩ : BufTy).Contents (Elt F) → (⟨S50000x64, .f32⟩ : BufTy).Contents (Elt F)),
    binary main_v94 main_v98 main_v99 (addf : (⟨S50000x64, .f32⟩ : BufTy).Contents (Elt F) → (⟨S50000x64, .f32⟩ : BufTy).Contents (Elt F) → (⟨S50000x64, .f32⟩ : BufTy).Contents (Elt F)),
    unary main_arg5 main_v100 (broadcastInDim S1x64 ![1] bcast_S64_S1x64_1 : (⟨S64, .f32⟩ : BufTy).Contents (Elt F) → (⟨S1x64, .f32⟩ : BufTy).Contents (Elt F)),
    unary main_v100 main_v101 (broadcastInDim S50000x64 ![0, 1] bcast_S1x64_S50000x64_0_1 : (⟨S1x64, .f32⟩ : BufTy).Contents (Elt F) → (⟨S50000x64, .f32⟩ : BufTy).Contents (Elt F)),
    binary main_v99 main_v101 main_v102 (addf : (⟨S50000x64, .f32⟩ : BufTy).Contents (Elt F) → (⟨S50000x64, .f32⟩ : BufTy).Contents (Elt F) → (⟨S50000x64, .f32⟩ : BufTy).Contents (Elt F)) ]

/-- The next 5: each row's maximum. -/
abbrev opsE : List (HloOp τ sig (Elt F)) :=
  [ TRef.nullary (TRef.of (T := ⟨S_, .f32⟩) main_call1_cst) (constant S_ .f32 0xFF800000#32),
    TRef.binary (TRef.of (T := ⟨S50000x64, .f32⟩) main_v102) (TRef.of (T := ⟨S_, .f32⟩) main_call1_cst) (TRef.of (T := ⟨S50000, .f32⟩) main_call1_v0) (fun x v => Host.reduce FloatOps.maximumf x v reducesTo_S50000x64_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf ]

/-- The next 3: the rows shifted by their maxima. -/
abbrev opsG : List (HloOp τ sig (Elt F)) :=
  [ TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x64, .f32⟩) main_call1_v4) (broadcastInDim S50000x64 ![0, 1] bcast_S50000x1_S50000x64_0_1),
    TRef.binary (TRef.of (T := ⟨S50000x64, .f32⟩) main_v102) (TRef.of (T := ⟨S50000x64, .f32⟩) main_call1_v4) (TRef.of (T := ⟨S50000x64, .f32⟩) main_call1_v5) subf ]

/-- The last 7: the logarithm of each shifted row's sum of exponentials, subtracted. -/
abbrev opsH : List (HloOp τ sig (Elt F)) :=
  [ TRef.unary (TRef.of (T := ⟨S50000x64, .f32⟩) main_call1_v5) (TRef.of (T := ⟨S50000x64, .f32⟩) main_call1_v6) Host.exp,
    TRef.nullary (TRef.of (T := ⟨S_, .f32⟩) main_call1_cst_1) (constant S_ .f32 0x00000000#32),
    TRef.binary (TRef.of (T := ⟨S50000x64, .f32⟩) main_call1_v6) (TRef.of (T := ⟨S_, .f32⟩) main_call1_cst_1) (TRef.of (T := ⟨S50000, .f32⟩) main_call1_v7) (fun x v => Host.reduceAdd x v reducesTo_S50000x64_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x64, .f32⟩) main_call1_v10) (broadcastInDim S50000x64 ![0, 1] bcast_S50000x1_S50000x64_0_1),
    TRef.binary (TRef.of (T := ⟨S50000x64, .f32⟩) main_call1_v5) (TRef.of (T := ⟨S50000x64, .f32⟩) main_call1_v10) (TRef.of (T := ⟨S50000x64, .f32⟩) main_v103) subf ]

theorem ops_split : (ops : List (HloOp τ sig (Elt F))) = opsA ++ (opsB ++ (opsC ++ (opsD ++ (opsE ++ (opsG ++ opsH))))) := rfl

theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- The contents after the first stage. -/
@[irreducible] def WA (V : Valuation τ sig (Elt Ideal)) : Valuation τ sig (Elt Ideal) := after (opsA (F := Ideal)) V
/-- The contents after the second stage. -/
@[irreducible] def WB (V : Valuation τ sig (Elt Ideal)) : Valuation τ sig (Elt Ideal) := after (opsB (F := Ideal)) (WA V)
/-- The contents after the third stage. -/
@[irreducible] def WC (V : Valuation τ sig (Elt Ideal)) : Valuation τ sig (Elt Ideal) := after (opsC (F := Ideal)) (WB V)
/-- The contents after the fourth stage. -/
@[irreducible] def WD (V : Valuation τ sig (Elt Ideal)) : Valuation τ sig (Elt Ideal) := after (opsD (F := Ideal)) (WC V)
/-- The contents after the row maxima. -/
@[irreducible] def WE (V : Valuation τ sig (Elt Ideal)) : Valuation τ sig (Elt Ideal) := after (opsE (F := Ideal)) (WD V)
/-- The contents after the shift. -/
@[irreducible] def WG (V : Valuation τ sig (Elt Ideal)) : Valuation τ sig (Elt Ideal) := after (opsG (F := Ideal)) (WE V)

variable (V : Valuation τ sig (Elt Ideal))

-- two applications of one of the host's whole-array operations are equal when their arguments are
attribute [local irreducible] Host.reduce Host.reduceAdd Host.scatterAdd Host.gather

/-! ## A typed reference's transport is the identity at a literal buffer -/

/-- Contents moved to a typed reference's buffer and back are the contents. -/
theorem ofBuf_toBuf {T : BufTy} (x : TRef sig T) (v : T.Contents (Elt Ideal)) : x.ofBuf (x.toBuf v) = v := by
  obtain ⟨r, rfl, h2, h3⟩ := x
  rfl

theorem tb_call1_v2 (p1 : main_call1_v2.ty = ⟨S50000, .f32⟩) (p2 p3) (z : (⟨S50000, .f32⟩ : BufTy).Contents (Elt Ideal)) :
    (TRef.of (sig := sig) (T := ⟨S50000, .f32⟩) main_call1_v2 p1 p2 p3).toBuf z = z := rfl
theorem ob_call1_v2 (p1 : main_call1_v2.ty = ⟨S50000, .f32⟩) (p2 p3) (z : main_call1_v2.ty.Contents (Elt Ideal)) :
    (TRef.of (sig := sig) (T := ⟨S50000, .f32⟩) main_call1_v2 p1 p2 p3).ofBuf z = z := rfl
theorem ob_v102 (p1 : main_v102.ty = ⟨S50000x64, .f32⟩) (p2 p3) (z : main_v102.ty.Contents (Elt Ideal)) :
    (TRef.of (sig := sig) (T := ⟨S50000x64, .f32⟩) main_v102 p1 p2 p3).ofBuf z = z := rfl
theorem tb_call1_v5 (p1 : main_call1_v5.ty = ⟨S50000x64, .f32⟩) (p2 p3) (z : (⟨S50000x64, .f32⟩ : BufTy).Contents (Elt Ideal)) :
    (TRef.of (sig := sig) (T := ⟨S50000x64, .f32⟩) main_call1_v5 p1 p2 p3).toBuf z = z := rfl
theorem ob_call1_v5 (p1 : main_call1_v5.ty = ⟨S50000x64, .f32⟩) (p2 p3) (z : main_call1_v5.ty.Contents (Elt Ideal)) :
    (TRef.of (sig := sig) (T := ⟨S50000x64, .f32⟩) main_call1_v5 p1 p2 p3).ofBuf z = z := rfl
theorem tb_v53 (p1 : main_v53.ty = ⟨S50000x128, .f32⟩) (p2 p3) (z : (⟨S50000x128, .f32⟩ : BufTy).Contents (Elt Ideal)) :
    (TRef.of (sig := sig) (T := ⟨S50000x128, .f32⟩) main_v53 p1 p2 p3).toBuf z = z := rfl
theorem ob_v52 (p1 : main_v52.ty = ⟨S50000x128, .f32⟩) (p2 p3) (z : main_v52.ty.Contents (Elt Ideal)) :
    (TRef.of (sig := sig) (T := ⟨S50000x128, .f32⟩) main_v52 p1 p2 p3).ofBuf z = z := rfl
theorem tb_v103 (p1 : main_v103.ty = ⟨S50000x64, .f32⟩) (p2 p3) (z : (⟨S50000x64, .f32⟩ : BufTy).Contents (Elt Ideal)) :
    (TRef.of (sig := sig) (T := ⟨S50000x64, .f32⟩) main_v103 p1 p2 p3).toBuf z = z := rfl

theorem A_src : WA V (Proc.devRef .tc main_v1) = Stage.src (V (Proc.devRef .tc main_arg1)) := by
  unfold WA opsA; after_results_simp <;> rfl
theorem A_dst : WA V (Proc.devRef .tc main_v3) = Stage.dst (V (Proc.devRef .tc main_arg1)) := by
  unfold WA opsA; after_results_simp <;> rfl
theorem A_h1 : WA V (Proc.devRef .tc main_v4) = Stage.dense128 (V (Proc.devRef .tc main_arg0)) (V (Proc.devRef .tc main_arg2)) := by
  unfold WA opsA; after_results_simp <;> rfl
theorem A_dinv : WA V (Proc.devRef .tc main_v16) = Stage.dinvOf (Stage.col (Stage.wrap (Stage.dst (V (Proc.devRef .tc main_arg1))))) := by
  unfold WA opsA; after_results_simp <;> rfl
theorem A_nrm : WA V (Proc.devRef .tc main_v31)
    = Stage.normOf (Stage.dinvOf (Stage.col (Stage.wrap (Stage.dst (V (Proc.devRef .tc main_arg1))))))
        (Stage.src (V (Proc.devRef .tc main_arg1))) (Stage.dst (V (Proc.devRef .tc main_arg1))) := by
  unfold WA opsA; after_results_simp <;> rfl
theorem A_arg3 : WA V (Proc.devRef .tc main_arg3) = V (Proc.devRef .tc main_arg3) := by
  unfold WA opsA; after_results_simp <;> rfl
theorem A_arg4 : WA V (Proc.devRef .tc main_arg4) = V (Proc.devRef .tc main_arg4) := by
  unfold WA opsA; after_results_simp <;> rfl
theorem A_arg5 : WA V (Proc.devRef .tc main_arg5) = V (Proc.devRef .tc main_arg5) := by
  unfold WA opsA; after_results_simp <;> rfl

theorem B_h2 : WB V (Proc.devRef .tc main_v54)
    = Stage.dense64 (Stage.hidden
        (Stage.aggOf128 (WA V (Proc.devRef .tc main_v4)) (WA V (Proc.devRef .tc main_v1)) (WA V (Proc.devRef .tc main_v3)) (Stage.colF (WA V (Proc.devRef .tc main_v31))))
        (WA V (Proc.devRef .tc main_v4)) (Stage.dsqCol (WA V (Proc.devRef .tc main_v16))) (Stage.biasRow128 (WA V (Proc.devRef .tc main_arg3))))
      (WA V (Proc.devRef .tc main_arg4)) := by
  unfold WB opsB; after_results_simp
  simp only [ofBuf_toBuf, tb_v53, ob_v52]
  all_goals rfl
theorem B_src : WB V (Proc.devRef .tc main_v1) = WA V (Proc.devRef .tc main_v1) := by
  unfold WB opsB; after_results_simp <;> rfl
theorem B_dst : WB V (Proc.devRef .tc main_v3) = WA V (Proc.devRef .tc main_v3) := by
  unfold WB opsB; after_results_simp <;> rfl
theorem B_arg5 : WB V (Proc.devRef .tc main_arg5) = WA V (Proc.devRef .tc main_arg5) := by
  unfold WB opsB; after_results_simp <;> rfl

theorem C_dinv : WC V (Proc.devRef .tc main_v66) = Stage.dinvOf (Stage.col (Stage.wrap (WB V (Proc.devRef .tc main_v3)))) := by
  unfold WC opsC; after_results_simp <;> rfl
theorem C_nrm : WC V (Proc.devRef .tc main_v81)
    = Stage.normOf (Stage.dinvOf (Stage.col (Stage.wrap (WB V (Proc.devRef .tc main_v3))))) (WB V (Proc.devRef .tc main_v1)) (WB V (Proc.devRef .tc main_v3)) := by
  unfold WC opsC; after_results_simp <;> rfl
theorem C_h2 : WC V (Proc.devRef .tc main_v54) = WB V (Proc.devRef .tc main_v54) := by
  unfold WC opsC; after_results_simp <;> rfl
theorem C_src : WC V (Proc.devRef .tc main_v1) = WB V (Proc.devRef .tc main_v1) := by
  unfold WC opsC; after_results_simp <;> rfl
theorem C_dst : WC V (Proc.devRef .tc main_v3) = WB V (Proc.devRef .tc main_v3) := by
  unfold WC opsC; after_results_simp <;> rfl
theorem C_arg5 : WC V (Proc.devRef .tc main_arg5) = WB V (Proc.devRef .tc main_arg5) := by
  unfold WC opsC; after_results_simp <;> rfl

theorem D_logits : WD V (Proc.devRef .tc main_v102)
    = Stage.logits
        (Stage.aggOf64 (WC V (Proc.devRef .tc main_v54)) (WC V (Proc.devRef .tc main_v1)) (WC V (Proc.devRef .tc main_v3))
          (Stage.colF (WC V (Proc.devRef .tc main_v81))))
        (WC V (Proc.devRef .tc main_v54))
        (Stage.dsqCol (WC V (Proc.devRef .tc main_v66)))
        (Stage.biasRow64 (WC V (Proc.devRef .tc main_arg5))) := by
  unfold WD opsD; after_results_simp <;> rfl

theorem E_max : WE V (Proc.devRef .tc main_call1_v2) = Stage.rowMaxR (WD V (Proc.devRef .tc main_v102)) := by
  unfold WE opsE; after_results_simp
  simp only [ofBuf_toBuf, tb_call1_v2, ob_v102]
  all_goals rfl
theorem E_logits : WE V (Proc.devRef .tc main_v102) = WD V (Proc.devRef .tc main_v102) := by
  unfold WE opsE; after_results_simp <;> rfl

theorem G_shift : WG V (Proc.devRef .tc main_call1_v5)
    = subf (F := Ideal) (φ := .f32) (WE V (Proc.devRef .tc main_v102))
        (broadcastInDim S50000x64 ![0, 1] bcast_S50000x1_S50000x64_0_1
          (broadcastInDim S50000x1 ![0] bcast_S50000_S50000x1_0 (WE V (Proc.devRef .tc main_call1_v2)))) := by
  unfold WG opsG; after_results_simp
  simp only [ofBuf_toBuf, tb_call1_v5, ob_call1_v2, ob_v102]
  all_goals rfl

theorem H_out : after (opsH (F := Ideal)) (WG V) (Proc.devRef .tc main_v103)
    = subf (F := Ideal) (φ := .f32) (WG V (Proc.devRef .tc main_call1_v5))
        (broadcastInDim S50000x64 ![0, 1] bcast_S50000x1_S50000x64_0_1
          (Host.log (F := Ideal) (φ := .f32) (broadcastInDim S50000x1 ![0] bcast_S50000_S50000x1_0
            (Host.reduceAdd (F := Ideal) (φ := .f32) (Host.exp (F := Ideal) (φ := .f32) (WG V (Proc.devRef .tc main_call1_v5))) (constant (F := Ideal) S_ .f32 0x00000000#32)
              reducesTo_S50000x64_S50000_d1 h_S_)))) := by
  unfold opsH; after_results_simp
  simp only [ofBuf_toBuf, tb_v103, ob_call1_v5]
  all_goals rfl

/-- The last fifteen operations are the row-wise log-softmax of what the stage before left. -/
theorem E_out : after (opsH (F := Ideal)) (WG V) (Proc.devRef .tc main_v103) = Stage.logSoftmax (WD V (Proc.devRef .tc main_v102)) := by
  rw [H_out, G_shift, E_max, E_logits]
  rfl

theorem foldA : after (opsA (F := Ideal)) V = WA V := by unfold WA; rfl
theorem foldB : after (opsB (F := Ideal)) (WA V) = WB V := by unfold WB; rfl
theorem foldC : after (opsC (F := Ideal)) (WB V) = WC V := by unfold WC; rfl
theorem foldD : after (opsD (F := Ideal)) (WC V) = WD V := by unfold WD; rfl
theorem foldE : after (opsE (F := Ideal)) (WD V) = WE V := by unfold WE; rfl
theorem foldG : after (opsG (F := Ideal)) (WE V) = WG V := by unfold WG; rfl

/-- The whole line leaves the network of the six arguments in the result buffer. -/
theorem after_result : after (ops : List (HloOp τ sig (Elt Ideal))) V (Proc.devRef .tc main_v103)
    = Stage.network (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split (F := Ideal), after_append, after_append, after_append, after_append, after_append, after_append]
  rw [foldA, foldB, foldC, foldD, foldE, foldG]
  rw [E_out, D_logits, C_dinv, C_nrm, C_h2, C_src, C_dst, C_arg5, B_h2, B_src, B_dst, B_arg5, A_src, A_dst, A_h1, A_dinv, A_nrm, A_arg3, A_arg4, A_arg5]
  rfl

set_option maxRecDepth 8192 in
set_option maxHeartbeats 57600000 in
/-- On every device, from any memory with zero counters: every weakly fair execution of @main terminates with the
    result at the network of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103)
        = Stage.network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v103).trans (after_result _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Staged

end
-- ==== Proof.Domain.lean ====
/-
  What the precondition says of the edge list, and what follows for the degree.

  The precondition's last conjunct states that every entry of the edge list is at least `0` and
  below `50000`, as signed 32-bit integers.  An index that is not negative is left alone by the
  wrap that moves negative indices up by the number of nodes; so under the precondition the
  destination row wrapped is the destination row, and counting the edges by their wrapped
  destinations is counting them by their destinations as given.
-/
import proofs.«139748_j62474594288248_1_alg».proof.Proof.Gen.Pre_finite_inputs
import Idealize.ShloMosaic.Lib.ReduceAll
import Idealize.ShloMosaic.Lib.Pipeline.Value
import proofs.«139748_j62474594288248_1_alg».proof.Proof.RefStages

set_option maxRecDepth 16384

noncomputable section

namespace Cert.Domain

open Idealize.ShloMosaic Idealize.ShloMosaic.ValueIdx

instance : Subsingleton Cert.Pre_finite_inputs.S_.Idx := ⟨fun a b => funext fun d => d.elim0⟩

/-- A scalar broadcast holds the scalar everywhere. -/
theorem scalar_bcast_apply {t : Shape} {α : Type} (h : (⟨0, ![]⟩ : Shape).BroadcastsInDim t (![] : Fin 0 → Fin t.rank))
    (x : (⟨0, ![]⟩ : Shape).Idx → α) (j : t.Idx) : broadcastInDim t (![] : Fin 0 → Fin t.rank) h x j = x ix0 :=
  broadcastInDim_apply _ h x j ix0 (fun a => a.elim0)

/-- Under the precondition every entry of the edge list is at least zero. -/
theorem nonneg_of_pre (a0 : FVec Ideal Cert.Pre_finite_inputs.S50000x128 .f32) (a1 : IVec Cert.Pre_finite_inputs.S2x600000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (h : Cert.Pre_finite_inputs.fn (F := Ideal) a0 a1 a2 a3 a4 a5 = fun _ => 1#1) (i : Cert.Pre_finite_inputs.S2x600000.Idx) :
    (0 : Int) ≤ (a1 i).toInt := by
  have h0 := congrFun h ix0
  dsimp only [Cert.Pre_finite_inputs.fn, Cert.Pre_finite_inputs.fn_part1] at h0
  have h1 := (IntOp.andi_eq_one.mp h0).2
  have h2 := Host.reduce_andi_all _ _ _ _ _ h1 i
  have h3 := (IntOp.andi_eq_one.mp h2).1
  have h4 := IntOp.cmpi_sge.mp h3
  have hz : (broadcastInDim Cert.Pre_finite_inputs.S2x600000 ![] Cert.Pre_finite_inputs.Facts.bcast_S_S2x600000
      (constantI Cert.Pre_finite_inputs.S_ 32 0#32)) i = 0#32 := scalar_bcast_apply _ _ _
  rw [hz] at h4
  exact h4

/-- An index row with no negative entry is left alone by the wrap. -/
theorem wrap_eq (v : IVec Cert.ReferenceIdeal.S600000 32) (hv : ∀ e, (0 : Int) ≤ (v e).toInt) :
    Cert.ReferenceIdeal.Stage.wrap v = v := by
  funext e
  have hz : (broadcastInDim Cert.ReferenceIdeal.S600000 ![] Cert.ReferenceIdeal.Gen.bcast_S_S600000
      (constantI Cert.ReferenceIdeal.S_ 32 0#32)) e = 0#32 := scalar_bcast_apply _ _ _
  have hc : IntOp.cmpi .slt (v e) 0#32 = 0#1 := by
    apply eq_zero_of_ne_one
    intro h1
    have h2 := IntOp.cmpi_slt.mp h1
    have h3 := hv e
    have h4 : (0#32 : BitVec 32).toInt = 0 := by decide
    omega
  unfold Cert.ReferenceIdeal.Stage.wrap
  show Scalar.select (IntOp.cmpi .slt (v e) ((broadcastInDim Cert.ReferenceIdeal.S600000 ![] Cert.ReferenceIdeal.Gen.bcast_S_S600000
      (constantI Cert.ReferenceIdeal.S_ 32 0#32)) e)) _ (v e) = v e
  rw [hz, hc, select_zero]

/-- Every entry of the destination row is an entry of the edge list. -/
theorem dst_entry (a1 : IVec Cert.ReferenceIdeal.S2x600000 32) (e : Cert.ReferenceIdeal.S600000.Idx) :
    ∃ i : Cert.ReferenceIdeal.S2x600000.Idx, Cert.ReferenceIdeal.Stage.dst a1 e = a1 i := ⟨_, rfl⟩

/-- Under the precondition the destination row wrapped is the destination row. -/
theorem wrap_dst (a0 : FVec Ideal Cert.Pre_finite_inputs.S50000x128 .f32) (a1 : IVec Cert.Pre_finite_inputs.S2x600000 32)
    (a2 : FVec Ideal Cert.Pre_finite_inputs.S128x128 .f32) (a3 : FVec Ideal Cert.Pre_finite_inputs.S128 .f32)
    (a4 : FVec Ideal Cert.Pre_finite_inputs.S128x64 .f32) (a5 : FVec Ideal Cert.Pre_finite_inputs.S64 .f32)
    (h : Cert.Pre_finite_inputs.fn (F := Ideal) a0 a1 a2 a3 a4 a5 = fun _ => 1#1) :
    Cert.ReferenceIdeal.Stage.wrap (Cert.ReferenceIdeal.Stage.dst a1) = Cert.ReferenceIdeal.Stage.dst a1 :=
  wrap_eq _ fun e => by
    obtain ⟨i, hi⟩ := dst_entry a1 e
    rw [hi]
    exact nonneg_of_pre a0 a1 a2 a3 a4 a5 h i

end Cert.Domain

end
-- ==== Proof.lean ====
/-
  A two-layer graph convolution network, tiled kernels against the plain formulas.

  Both programs compute, for 50000 nodes and 600000 directed edges,
    deg = 1 + (number of edges into the node),  dinv = deg^(-1/2),
    layer(X, W, b) = Σ over edges (s → t) of dinv s · dinv t · (X W) s, summed into t,  + dinv² · (X W) + b,
    out = log_softmax (layer (relu (layer (x, W1, b1)), W2, b2)).
  The kernel computes the two dense products and the two combine steps (the second fused with the
  row-wise log-softmax) in blocks of 5000 rows and leaves the gathers and scatters to the host; the
  reference is the same formula on whole arrays.  At the exact extended reals a blocked product is
  the product, a change of float format is the identity, and a column or row made by a reshape is
  the one made by a broadcast, so the two result arrays are the same stages applied to the same
  arguments — except for the degree: the reference counts an edge whose destination index is negative
  at the wrapped node, the kernel drops it.  Under the precondition (every entry of the edge list
  is a node index, `0 ≤ · < 50000`) no destination is negative, wrapping changes nothing, and the
  two degrees agree.  No rule of the idealization pass applied, so `preserves` is trivial; the two
  kernel programs' frames are the generated ones and the reference's is its run with the result
  dropped.
-/
import proofs.«139748_j62474594288248_1_alg».proof.Defs
import proofs.«139748_j62474594288248_1_alg».proof.Proof.Gen.Kernel
import proofs.«139748_j62474594288248_1_alg».proof.Proof.Gen.Kernel.Skeleton
import proofs.«139748_j62474594288248_1_alg».proof.Proof.Gen.Kernel.Launch
import proofs.«139748_j62474594288248_1_alg».proof.Proof.Gen.Kernel.Points
import proofs.«139748_j62474594288248_1_alg».proof.Proof.Gen.Kernel.Frame
import proofs.«139748_j62474594288248_1_alg».proof.Proof.Gen.KernelIdeal
import proofs.«139748_j62474594288248_1_alg».proof.Proof.Gen.KernelIdeal.Skeleton
import proofs.«139748_j62474594288248_1_alg».proof.Proof.Gen.KernelIdeal.Launch
import proofs.«139748_j62474594288248_1_alg».proof.Proof.Gen.KernelIdeal.Points
import proofs.«139748_j62474594288248_1_alg».proof.Proof.Gen.KernelIdeal.Frame
import proofs.«139748_j62474594288248_1_alg».proof.Proof.Gen.ReferenceIdeal
import proofs.«139748_j62474594288248_1_alg».proof.Proof.Gen.Pre_finite_inputs
import proofs.«139748_j62474594288248_1_alg».proof.Proof.KernelRun
import proofs.«139748_j62474594288248_1_alg».proof.Proof.Chain
import proofs.«139748_j62474594288248_1_alg».proof.Proof.RefRun
import proofs.«139748_j62474594288248_1_alg».proof.Proof.Domain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Staged.run m ρ)

/-- The idealization pass rewrote no operation. -/
theorem preserves : Cert.preserves_Kernel_KernelIdeal := trivial

/-- Both runs end with the network of the arguments in the result array: the kernel's with the edges counted
    by their destinations as given, which under the precondition are the wrapped destinations the
    reference counts by. -/
theorem algebraic : Cert.algebraic_KernelIdeal_ReferenceIdeal := by
  intro m ρ m' ρ' hpre hagree
  refine ⟨fun c => Cert.ReferenceIdeal.Stage.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Final.run_result (F := Ideal) m ρ)
    rw [Cert.KernelIdeal.Chain.W7_v58]
    unfold Cert.ReferenceIdeal.Stage.network
    beta_reduce
    rw [Cert.Domain.wrap_dst _ _ _ _ _ _ (hpre c)]
  · refine (θ_run Cert.ReferenceIdeal.defs _ _).mono (fun r h c => ⟨(h c).1.trans ?_, (h c).2⟩)
      (Cert.ReferenceIdeal.Staged.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
